-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x16x2048x64 : Shape := ⟨4, ![4, 16, 2048, 64]⟩
abbrev S4x1x2048x2048 : Shape := ⟨4, ![4, 1, 2048, 2048]⟩
abbrev S_ : Shape := ⟨0, ![]⟩

class Facts : Prop where
  bcast_S_S4x16x2048x64 : S_.BroadcastsInDim S4x16x2048x64 (![] : Fin 0 → Fin S4x16x2048x64.rank)
  reducesTo_S4x16x2048x64_S_d0_1_2_3 : S4x16x2048x64.ReducesTo [0, 1, 2, 3] S_
  h_S_ : 0 < S_.numel

variable [Facts]

def fn {F : FTy → Type} [FloatOps F] (main_arg0 : FVec F S4x16x2048x64 .f32) (main_arg1 : FVec F S4x16x2048x64 .f32) (main_arg2 : FVec F S4x16x2048x64 .f32) (main_arg3 : IVec S4x1x2048x2048 1) : IVec S_ 1 :=
  let main_v0 : FVec F S4x16x2048x64 .f32 := Host.absf main_arg0
  let main_cst : FVec F S_ .f32 := constant S_ .f32 0x7F800000#32
  let main_v1 : FVec F S4x16x2048x64 .f32 := broadcastInDim S4x16x2048x64 ![] bcast_S_S4x16x2048x64 main_cst
  let main_v2 : IVec S4x16x2048x64 1 := cmpf .olt main_v0 main_v1
  let main_c : IVec S_ 1 := constantI S_ 1 1#1
  let main_v3 : IVec S_ 1 := (fun x v => Host.reduce IntOp.andi x v reducesTo_S4x16x2048x64_S_d0_1_2_3 h_S_) main_v2 main_c
  let main_v4 : FVec F S4x16x2048x64 .f32 := Host.absf main_arg1
  let main_cst_0 : FVec F S_ .f32 := constant S_ .f32 0x7F800000#32
  let main_v5 : FVec F S4x16x2048x64 .f32 := broadcastInDim S4x16x2048x64 ![] bcast_S_S4x16x2048x64 main_cst_0
  let main_v6 : IVec S4x16x2048x64 1 := cmpf .olt main_v4 main_v5
  let main_c_1 : IVec S_ 1 := constantI S_ 1 1#1
  let main_v7 : IVec S_ 1 := (fun x v => Host.reduce IntOp.andi x v reducesTo_S4x16x2048x64_S_d0_1_2_3 h_S_) main_v6 main_c_1
  let main_v8 : IVec S_ 1 := andi main_v3 main_v7
  let main_v9 : FVec F S4x16x2048x64 .f32 := Host.absf main_arg2
  let main_cst_2 : FVec F S_ .f32 := constant S_ .f32 0x7F800000#32
  let main_v10 : FVec F S4x16x2048x64 .f32 := broadcastInDim S4x16x2048x64 ![] bcast_S_S4x16x2048x64 main_cst_2
  let main_v11 : IVec S4x16x2048x64 1 := cmpf .olt main_v9 main_v10
  let main_c_3 : IVec S_ 1 := constantI S_ 1 1#1
  let main_v12 : IVec S_ 1 := (fun x v => Host.reduce IntOp.andi x v reducesTo_S4x16x2048x64_S_d0_1_2_3 h_S_) main_v11 main_c_3
  let main_v13 : IVec S_ 1 := andi main_v8 main_v12
  main_v13
-- ==== Kernel.lean ====
abbrev S4x16x2048x64 : Shape := ⟨4, ![4, 16, 2048, 64]⟩
abbrev S4x1x2048x2048 : Shape := ⟨4, ![4, 1, 2048, 2048]⟩
abbrev S64x2048x64 : Shape := ⟨3, ![64, 2048, 64]⟩
abbrev S4x2048x2048 : Shape := ⟨3, ![4, 2048, 2048]⟩
abbrev S1x2048x64 : Shape := ⟨3, ![1, 2048, 64]⟩
abbrev S1x1024x64 : Shape := ⟨3, ![1, 1024, 64]⟩
abbrev S1x2048x2048 : Shape := ⟨3, ![1, 2048, 2048]⟩
abbrev S2048x64 : Shape := ⟨2, ![2048, 64]⟩
abbrev S1024x64 : Shape := ⟨2, ![1024, 64]⟩
abbrev S64x1024 : Shape := ⟨2, ![64, 1024]⟩
abbrev S2048x1024 : Shape := ⟨2, ![2048, 1024]⟩
abbrev S1x2048x1024 : Shape := ⟨3, ![1, 2048, 1024]⟩
abbrev S2048 : Shape := ⟨1, ![2048]⟩
abbrev S2048x1 : Shape := ⟨2, ![2048, 1]⟩

abbrev nBuf : Space → Nat
  | .hbm => 11
  | .vmem => 11
  | .smem => 0
  | _ => 0

abbrev bufTy : (tb : Table) → Fin (tcTables nBuf tb) → BufTy
  | .hbm, ⟨0, _⟩ => ⟨S4x16x2048x64, .f32⟩
  | .hbm, ⟨1, _⟩ => ⟨S4x16x2048x64, .f32⟩
  | .hbm, ⟨2, _⟩ => ⟨S4x16x2048x64, .f32⟩
  | .hbm, ⟨3, _⟩ => ⟨S4x1x2048x2048, .i1⟩
  | .hbm, ⟨4, _⟩ => ⟨S64x2048x64, .f32⟩
  | .hbm, ⟨5, _⟩ => ⟨S64x2048x64, .f32⟩
  | .hbm, ⟨6, _⟩ => ⟨S64x2048x64, .f32⟩
  | .hbm, ⟨7, _⟩ => ⟨S4x2048x2048, .i1⟩
  | .hbm, ⟨8, _⟩ => ⟨S4x2048x2048, .i32⟩
  | .hbm, ⟨9, _⟩ => ⟨S64x2048x64, .f32⟩
  | .hbm, ⟨10, _⟩ => ⟨S4x16x2048x64, .f32⟩
  | .local _ .vmem, ⟨0, _⟩ => ⟨S1x2048x64, .f32⟩
  | .local _ .vmem, ⟨1, _⟩ => ⟨S1x2048x64, .f32⟩
  | .local _ .vmem, ⟨2, _⟩ => ⟨S1x1024x64, .f32⟩
  | .local _ .vmem, ⟨3, _⟩ => ⟨S1x1024x64, .f32⟩
  | .local _ .vmem, ⟨4, _⟩ => ⟨S1x1024x64, .f32⟩
  | .local _ .vmem, ⟨5, _⟩ => ⟨S1x1024x64, .f32⟩
  | .local _ .vmem, ⟨6, _⟩ => ⟨S1x2048x2048, .i32⟩
  | .local _ .vmem, ⟨7, _⟩ => ⟨S1x2048x2048, .i32⟩
  | .local _ .vmem, ⟨8, _⟩ => ⟨S1x2048x64, .f32⟩
  | .local _ .vmem, ⟨9, _⟩ => ⟨S1x2048x64, .f32⟩
  | .local _ .vmem, ⟨10, _⟩ => ⟨S2048x64, .f32⟩
  | _, _ => ⟨S4x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![64, 2], ![false, false]⟩

def k0_mult1 (i : grid0.Coords) : BitVec 32 :=
  let arg1 : BitVec 32 := BitVec.ofNat 32 (i 1).val
  let c1024_i32 : BitVec 32 := 1024#32
  let v13 : BitVec 32 := Scalar.muli arg1 c1024_i32
  v13
def k0_off1 (i : grid0.Coords) : Fin 3 → Nat :=
  let c0_7 : Index := 0#32
  let c0_8 : Index := 0#32
  let arg1 : BitVec 32 := BitVec.ofNat 32 (i 1).val
  let c1024_i32 : BitVec 32 := 1024#32
  let v13 : BitVec 32 := Scalar.muli arg1 c1024_i32
  let v14 : BitVec 32 := v13
  let v15 : Index := Scalar.indexCast v14
  ![0, 0, v15.toNat]
def k0_cond2 (i : grid0.Coords) : BitVec 1 :=
  let arg1 : BitVec 32 := BitVec.ofNat 32 (i 1).val
  let c1_i32 : BitVec 32 := 1#32
  let v29 : BitVec 1 := Scalar.cmpi .eq arg1 c1_i32
  let v30 : BitVec 32 := Scalar.extui v29
  let c0_i32_19 : BitVec 32 := 0#32
  let v31 : BitVec 1 := Scalar.cmpi .ne v30 c0_i32_19
  v31

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x2048 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2048x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S4x16x2048x64_S64x2048x64 : S4x16x2048x64.ShapeCasts S64x2048x64
  shapeCasts_S4x1x2048x2048_S4x2048x2048 : S4x1x2048x2048.ShapeCasts S4x2048x2048
  natLt_1_32 : 1 < 32
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  bitsLt_bf16_f32 : FTy.bits .bf16 < FTy.bits .f32
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  transposes_S1024x64_p1_0_S64x1024 : S1024x64.Transposes [1, 0] S64x1024
  h_S1x2048x1024 : 0 < S1x2048x1024.numel
  shapeCasts_S1x2048x1024_S2048x1024 : S1x2048x1024.ShapeCasts S2048x1024
  reduces_S2048x64_S2048 : S2048x64.Reduces [1] S2048
  shapeCasts_S2048_S2048x1 : S2048.ShapeCasts S2048x1
  broadcasts_S2048x1_S2048x64 : S2048x1.Broadcasts S2048x64
  shapeCasts_S2048x64_S1x2048x64 : S2048x64.ShapeCasts S1x2048x64
  shapeCasts_S64x2048x64_S4x16x2048x64 : S64x2048x64.ShapeCasts S4x16x2048x64
  dot_S2048x64_S64x1024_S2048x1024_1_0_0_1_n_n_wf : DotDims.WF S2048x64 S64x1024 S2048x1024 [1] [0] [0] [1] [] []
  dot_S2048x1024_S1024x64_S2048x64_1_0_0_1_n_n_wf : DotDims.WF S2048x1024 S1024x64 S2048x64 [1] [0] [0] [1] [] []
  hrank0 : 0 < grid0.rank
  k0_mult1_dvd : ∀ i : grid0.Coords, 128 ∣ (k0_mult1 i).toNat
  k0_off1_inb : ∀ i : grid0.Coords, ∀ a, (k0_off1 i) a + S1x2048x1024.size a ≤ S1x2048x2048.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x64.size a ≤ S64x2048x64.size a
  hwx0_0 : ∀ i : grid0.Coords, EltTy.bits .f32 = 32 ∨ (Rect.block (s := S64x2048x64) S1x2048x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x64.size a ≤ S64x2048x64.size a
  hwx0_1 : ∀ i : grid0.Coords, EltTy.bits .f32 = 32 ∨ (Rect.block (s := S64x2048x64) S1x1024x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x64.size a ≤ S64x2048x64.size a
  hwx0_2 : ∀ i : grid0.Coords, EltTy.bits .f32 = 32 ∨ (Rect.block (s := S64x2048x64) S1x1024x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x2048.size a ≤ S4x2048x2048.size a
  hwx0_3 : ∀ i : grid0.Coords, EltTy.bits .i32 = 32 ∨ (Rect.block (s := S4x2048x2048) S1x2048x2048.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x2048x64.size a ≤ S64x2048x64.size a
  hwx0_4 : ∀ i : grid0.Coords, EltTy.bits .f32 = 32 ∨ (Rect.block (s := S64x2048x64) S1x2048x64.size (cc0_transform_4 i) (hinb0_4 i)).WholeWords (EltTy.packing .f32)

variable [Facts₀]

def dot_S2048x64_S64x1024_S2048x1024_1_0_0_1_n_n : DotDims S2048x64 S64x1024 S2048x1024 where
  lhsContracting := [1]
  rhsContracting := [0]
  lhsNonContracting := [0]
  rhsNonContracting := [1]
  lhsBatch := []
  rhsBatch := []
  wf := dot_S2048x64_S64x1024_S2048x1024_1_0_0_1_n_n_wf
def dot_S2048x1024_S1024x64_S2048x64_1_0_0_1_n_n : DotDims S2048x1024 S1024x64 S2048x64 where
  lhsContracting := [1]
  rhsContracting := [0]
  lhsNonContracting := [0]
  rhsNonContracting := [1]
  lhsBatch := []
  rhsBatch := []
  wf := dot_S2048x1024_S1024x64_S2048x64_1_0_0_1_n_n_wf

abbrev win0_0 : Pipeline.Window sig grid0 :=
  Pipeline.Window.ofSpec (Memref.whole main_v0) S1x2048x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1024x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x2048x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x2048x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S4x16x2048x64 : Shape := ⟨4, ![4, 16, 2048, 64]⟩
abbrev S4x1x2048x2048 : Shape := ⟨4, ![4, 1, 2048, 2048]⟩
abbrev S4x16x2048x2048 : Shape := ⟨4, ![4, 16, 2048, 2048]⟩
abbrev S_ : Shape := ⟨0, ![]⟩
abbrev S4x16x2048 : Shape := ⟨3, ![4, 16, 2048]⟩
abbrev S4x16x2048x1 : Shape := ⟨4, ![4, 16, 2048, 1]⟩

abbrev nBuf : Space → Nat
  | .hbm => 29
  | .vmem => 0
  | .smem => 0
  | _ => 0

abbrev bufTy : (tb : Table) → Fin (tcTables nBuf tb) → BufTy
  | .hbm, ⟨0, _⟩ => ⟨S4x16x2048x64, .f32⟩
  | .hbm, ⟨1, _⟩ => ⟨S4x16x2048x64, .f32⟩
  | .hbm, ⟨2, _⟩ => ⟨S4x16x2048x64, .f32⟩
  | .hbm, ⟨3, _⟩ => ⟨S4x1x2048x2048, .i1⟩
  | .hbm, ⟨4, _⟩ => ⟨S4x16x2048x2048, .f32⟩
  | .hbm, ⟨5, _⟩ => ⟨S_, .f32⟩
  | .hbm, ⟨6, _⟩ => ⟨S_, .f32⟩
  | .hbm, ⟨7, _⟩ => ⟨S4x16x2048x2048, .f32⟩
  | .hbm, ⟨8, _⟩ => ⟨S4x16x2048x2048, .f32⟩
  | .hbm, ⟨9, _⟩ => ⟨S_, .f32⟩
  | .hbm, ⟨10, _⟩ => ⟨S4x16x2048x2048, .i1⟩
  | .hbm, ⟨11, _⟩ => ⟨S4x16x2048x2048, .f32⟩
  | .hbm, ⟨12, _⟩ => ⟨S4x16x2048x2048, .f32⟩
  | .hbm, ⟨13, _⟩ => ⟨S4x16x2048x64, .f32⟩
  | .hbm, ⟨14, _⟩ => ⟨S_, .f32⟩
  | .hbm, ⟨15, _⟩ => ⟨S4x16x2048, .f32⟩
  | .hbm, ⟨16, _⟩ => ⟨S_, .f32⟩
  | .hbm, ⟨17, _⟩ => ⟨S4x16x2048, .f32⟩
  | .hbm, ⟨18, _⟩ => ⟨S4x16x2048, .f32⟩
  | .hbm, ⟨19, _⟩ => ⟨S4x16x2048x1, .f32⟩
  | .hbm, ⟨20, _⟩ => ⟨S4x16x2048x64, .f32⟩
  | .hbm, ⟨21, _⟩ => ⟨S4x16x2048x64, .f32⟩
  | .hbm, ⟨22, _⟩ => ⟨S4x16x2048x64, .f32⟩
  | .hbm, ⟨23, _⟩ => ⟨S_, .f32⟩
  | .hbm, ⟨24, _⟩ => ⟨S4x16x2048, .f32⟩
  | .hbm, ⟨25, _⟩ => ⟨S4x16x2048x1, .f32⟩
  | .hbm, ⟨26, _⟩ => ⟨S4x16x2048x1, .f32⟩
  | .hbm, ⟨27, _⟩ => ⟨S4x16x2048x64, .f32⟩
  | .hbm, ⟨28, _⟩ => ⟨S4x16x2048x64, .f32⟩
  | _, _ => ⟨S4x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_call0_v0 : Ref sig .tc := ⟨.hbm, 10, rfl⟩
abbrev main_call0_v1 : Ref sig .tc := ⟨.hbm, 11, rfl⟩
abbrev main_v4 : Ref sig .tc := ⟨.hbm, 12, rfl⟩
abbrev main_v5 : Ref sig .tc := ⟨.hbm, 13, rfl⟩
abbrev main_call1_cst : Ref sig .tc := ⟨.hbm, 14, rfl⟩
abbrev main_call1_v0 : Ref sig .tc := ⟨.hbm, 15, rfl⟩
abbrev main_call1_cst_0 : Ref sig .tc := ⟨.hbm, 16, rfl⟩
abbrev main_call1_v1 : Ref sig .tc := ⟨.hbm, 17, rfl⟩
abbrev main_call1_v2 : Ref sig .tc := ⟨.hbm, 18, rfl⟩
abbrev main_call1_v3 : Ref sig .tc := ⟨.hbm, 19, rfl⟩
abbrev main_call1_v4 : Ref sig .tc := ⟨.hbm, 20, rfl⟩
abbrev main_call1_v5 : Ref sig .tc := ⟨.hbm, 21, rfl⟩
abbrev main_call1_v6 : Ref sig .tc := ⟨.hbm, 22, rfl⟩
abbrev main_call1_cst_1 : Ref sig .tc := ⟨.hbm, 23, rfl⟩
abbrev main_call1_v7 : Ref sig .tc := ⟨.hbm, 24, rfl⟩
abbrev main_call1_v8 : Ref sig .tc := ⟨.hbm, 25, rfl⟩
abbrev main_call1_v9 : Ref sig .tc := ⟨.hbm, 26, rfl⟩
abbrev main_call1_v10 : Ref sig .tc := ⟨.hbm, 27, rfl⟩
abbrev main_v6 : Ref sig .tc := ⟨.hbm, 28, rfl⟩

abbrev nD : Nat := 1
abbrev τ : Topo := Topo.v7x

variable {F : FTy → Type} [FloatOps F]

class Facts₀ : Prop where
  bcast_S_S4x16x2048x2048 : S_.BroadcastsInDim S4x16x2048x2048 (![] : Fin 0 → Fin S4x16x2048x2048.rank)
  bcast_S4x1x2048x2048_S4x16x2048x2048_0_1_2_3 : S4x1x2048x2048.BroadcastsInDim S4x16x2048x2048 (![0, 1, 2, 3] : Fin 4 → Fin S4x16x2048x2048.rank)
  reducesTo_S4x16x2048x64_S4x16x2048_d3 : S4x16x2048x64.ReducesTo [3] S4x16x2048
  h_S_ : 0 < S_.numel
  bcast_S_S4x16x2048 : S_.BroadcastsInDim S4x16x2048 (![] : Fin 0 → Fin S4x16x2048.rank)
  bcast_S4x16x2048_S4x16x2048x1_0_1_2 : S4x16x2048.BroadcastsInDim S4x16x2048x1 (![0, 1, 2] : Fin 3 → Fin S4x16x2048x1.rank)
  bcast_S4x16x2048x1_S4x16x2048x64_0_1_2_3 : S4x16x2048x1.BroadcastsInDim S4x16x2048x64 (![0, 1, 2, 3] : Fin 4 → Fin S4x16x2048x64.rank)
  dot_S4x16x2048x64_S4x16x2048x64_S4x16x2048x2048_3_3_2_2_01_01_wf : DotDims.WF S4x16x2048x64 S4x16x2048x64 S4x16x2048x2048 [3] [3] [2] [2] [0, 1] [0, 1]
  dot_S4x16x2048x2048_S4x16x2048x64_S4x16x2048x64_3_2_2_3_01_01_wf : DotDims.WF S4x16x2048x2048 S4x16x2048x64 S4x16x2048x64 [3] [2] [2] [3] [0, 1] [0, 1]

variable [Facts₀]

def dot_S4x16x2048x64_S4x16x2048x64_S4x16x2048x2048_3_3_2_2_01_01 : DotDims S4x16x2048x64 S4x16x2048x64 S4x16x2048x2048 where
  lhsContracting := [3]
  rhsContracting := [3]
  lhsNonContracting := [2]
  rhsNonContracting := [2]
  lhsBatch := [0, 1]
  rhsBatch := [0, 1]
  wf := dot_S4x16x2048x64_S4x16x2048x64_S4x16x2048x2048_3_3_2_2_01_01_wf
def dot_S4x16x2048x2048_S4x16x2048x64_S4x16x2048x64_3_2_2_3_01_01 : DotDims S4x16x2048x2048 S4x16x2048x64 S4x16x2048x64 where
  lhsContracting := [3]
  rhsContracting := [2]
  lhsNonContracting := [2]
  rhsNonContracting := [3]
  lhsBatch := [0, 1]
  rhsBatch := [0, 1]
  wf := dot_S4x16x2048x2048_S4x16x2048x64_S4x16x2048x64_3_2_2_3_01_01_wf

class Facts : Prop extends Facts₀ where

variable [Facts]
-- ==== Proof.Pieces.lean ====
/-
  What the kernel body leaves, case by case, as values of its loaded blocks.

  At the first key tile of a row block the body zeroes its accumulator and adds the tile's contribution to it; at the
  second tile it adds the tile's contribution to what the first left, and then writes the row-wise log-softmax of the
  accumulator to the output block. Each of these is one store covering its whole buffer, so what the buffer holds
  afterwards is that store's value; every load reads a whole block, except the mask's, which reads the 1024 columns
  of the resident mask block that belong to the tile.
-/
import proofs.«178710_j18391049961538_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem Idealize.ShloMosaic.Tactic

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The mask columns of one key tile: the resident mask block read through the tile's rectangle. -/
abbrev mtile (i : grid0.Coords) (x3 : Vec F S1x2048x2048 .i32) : Vec F S1x2048x1024 .i32 :=
  View.ld x3 (Rect.unit (s := S1x2048x2048) (k0_off1 i) S1x2048x1024.size (k0_off1_inb i))

/-- The accumulator after one tile: what it held plus the tile's masked scores times the tile's values. -/
abbrev step (i : grid0.Coords) (x0 : Vec F S1x2048x64 .f32) (x1 x2 : Vec F S1x1024x64 .f32) (x3 : Vec F S1x2048x2048 .i32)
    (acc : Vec F S2048x64 .f32) : Vec F S2048x64 .f32 :=
  k0_pay3 x0 x1 (mtile i x3) x2 acc

/-- At a second tile the accumulator ends at the step from what the first tile left. -/
theorem sout_B (c : Dev nD) (i : grid0.Coords) (arg2 : Memref sig .tc .vmem S1x2048x64 .f32) (harg2 : arg2.IsWhole) (arg3 : Memref sig .tc .vmem S1x1024x64 .f32) (harg3 : arg3.IsWhole) (arg4 : Memref sig .tc .vmem S1x1024x64 .f32) (harg4 : arg4.IsWhole) (arg5 : Memref sig .tc .vmem S1x2048x2048 .i32) (harg5 : arg5.IsWhole) (arg6 : Memref sig .tc .vmem S1x2048x64 .f32) (harg6 : arg6.IsWhole) (arg7 : Memref sig .tc .vmem S2048x64 .f32) (harg7 : arg7.IsWhole) (hc0 : ¬cond0_0 i) (hc1 : cond0_1 i) (x0 : Vec F S1x2048x64 .f32) (x1 : Vec F S1x1024x64 .f32) (x2 : Vec F S1x1024x64 .f32) (x3 : Vec F S1x2048x2048 .i32) (xs0 : Vec F S2048x64 .f32) :
    sout0_B_0 c i arg2 harg2 arg3 harg3 arg4 harg4 arg5 harg5 arg6 harg6 arg7 harg7 hc0 hc1 x0 x1 x2 x3 xs0 = step i x0 x1 x2 x3 xs0 := by
  unfold sout0_B_0
  rw [View.read_writes_eq_canon _ _ _ (scover0_B_0 c i arg2 harg2 arg3 harg3 arg4 harg4 arg5 harg5 arg6 harg6 arg7 harg7 hc0 hc1 x0 x1 x2 x3 xs0)]
  unfold kernelRun0_B
  dsimp only
  sl_unfold_words
  rw [View.canon_unit_zero (S := S2048x64) hz2]
  simp only [View.readAt_eq_ld, harg2.read_unread, harg3.read_unread, harg4.read_unread, harg5.read_unread, harg7.read_unread,
    View.ld_unit_zero (S := S1x2048x64) hz3, View.ld_unit_zero (S := S1x1024x64) hz3, View.ld_unit_zero (S := S2048x64) hz2]
  rfl

/-- At a second tile the output block ends at the log-softmax payload of that accumulator. -/
theorem out_B (c : Dev nD) (i : grid0.Coords) (arg2 : Memref sig .tc .vmem S1x2048x64 .f32) (harg2 : arg2.IsWhole) (arg3 : Memref sig .tc .vmem S1x1024x64 .f32) (harg3 : arg3.IsWhole) (arg4 : Memref sig .tc .vmem S1x1024x64 .f32) (harg4 : arg4.IsWhole) (arg5 : Memref sig .tc .vmem S1x2048x2048 .i32) (harg5 : arg5.IsWhole) (arg6 : Memref sig .tc .vmem S1x2048x64 .f32) (harg6 : arg6.IsWhole) (arg7 : Memref sig .tc .vmem S2048x64 .f32) (harg7 : arg7.IsWhole) (hc0 : ¬cond0_0 i) (hc1 : cond0_1 i) (x0 : Vec F S1x2048x64 .f32) (x1 : Vec F S1x1024x64 .f32) (x2 : Vec F S1x1024x64 .f32) (x3 : Vec F S1x2048x2048 .i32) (xs0 : Vec F S2048x64 .f32) :
    out0_B_4 c i arg2 harg2 arg3 harg3 arg4 harg4 arg5 harg5 arg6 harg6 arg7 harg7 hc0 hc1 x0 x1 x2 x3 xs0 = k0_pay1 (step i x0 x1 x2 x3 xs0) := by
  unfold out0_B_4
  rw [View.read_writes_eq_canon _ _ _ (cover0_B_4 c i arg2 harg2 arg3 harg3 arg4 harg4 arg5 harg5 arg6 harg6 arg7 harg7 hc0 hc1 x0 x1 x2 x3 xs0)]
  unfold kernelRun0_B
  dsimp only
  sl_unfold_words
  rw [View.canon_unit_zero (S := S1x2048x64) hz3]
  simp only [View.readAt_eq_ld, harg2.read_unread, harg3.read_unread, harg4.read_unread, harg5.read_unread, harg7.read_unread,
    View.ld_unit_zero (S := S1x2048x64) hz3, View.ld_unit_zero (S := S1x1024x64) hz3, View.ld_unit_zero (S := S2048x64) hz2,
    View.readCov_unit_zero (S := S2048x64) _ hz2]
  rfl

/-- At a first tile the accumulator ends at the step from the zero block. -/
theorem sout_A (c : Dev nD) (i : grid0.Coords) (arg2 : Memref sig .tc .vmem S1x2048x64 .f32) (harg2 : arg2.IsWhole) (arg3 : Memref sig .tc .vmem S1x1024x64 .f32) (harg3 : arg3.IsWhole) (arg4 : Memref sig .tc .vmem S1x1024x64 .f32) (harg4 : arg4.IsWhole) (arg5 : Memref sig .tc .vmem S1x2048x2048 .i32) (harg5 : arg5.IsWhole) (arg6 : Memref sig .tc .vmem S1x2048x64 .f32) (harg6 : arg6.IsWhole) (arg7 : Memref sig .tc .vmem S2048x64 .f32) (harg7 : arg7.IsWhole) (hc0 : cond0_0 i) (hc1 : ¬cond0_1 i) (x0 : Vec F S1x2048x64 .f32) (x1 : Vec F S1x1024x64 .f32) (x2 : Vec F S1x1024x64 .f32) (x3 : Vec F S1x2048x2048 .i32) :
    sout0_A_0 c i arg2 harg2 arg3 harg3 arg4 harg4 arg5 harg5 arg6 harg6 arg7 harg7 hc0 hc1 x0 x1 x2 x3 = step i x0 x1 x2 x3 (k0_pay2 (F := F)) := by
  unfold sout0_A_0
  rw [View.read_writes_eq_canon _ _ _ (scover0_A_0 c i arg2 harg2 arg3 harg3 arg4 harg4 arg5 harg5 arg6 harg6 arg7 harg7 hc0 hc1 x0 x1 x2 x3)]
  unfold kernelRun0_A
  dsimp only
  sl_unfold_words
  rw [View.canon_cons_unit_zero (S := S2048x64) hz2]
  simp only [View.readAt_eq_ld, harg2.read_unread, harg3.read_unread, harg4.read_unread, harg5.read_unread,
    View.ld_unit_zero (S := S1x2048x64) hz3, View.ld_unit_zero (S := S1x1024x64) hz3, View.ld_unit_zero (S := S2048x64) hz2,
    View.readCov_unit_zero (S := S2048x64) _ hz2]
  rfl

end Cert.KernelIdeal.Pieces

end
-- ==== Proof.Accum.lean ====
/-
  What the kernel's accumulator and output block hold after each grid point.

  The grid runs over the 64 row blocks and, inside a row block, over the two key tiles; point t is tile t mod 2 of row
  block t div 2. After an even point the accumulator holds the step from the zero block over that point's blocks. After
  an odd point it holds the step, over that point's blocks, from what the even point before it left, and the output block
  holds the log-softmax payload of that.
-/
import proofs.«178710_j18391049961538_2_alg».proof.Proof.Gen.KernelIdeal.Frame
import proofs.«178710_j18391049961538_2_alg».proof.Proof.Pieces

noncomputable section

open Idealize.ShloMosaic Idealize.ShloMosaic.TcCoe Idealize.SL.Sem

namespace Cert.KernelIdeal.Accum

open Cert.KernelIdeal Cert.KernelIdeal.Gen Cert.KernelIdeal.Pieces

variable {F : FTy → Type} [FloatOps F]
variable (m : (ℓ : Loc nD τ sig) → Buf (Elt F) ℓ)

/-- The step over the blocks of point t, from a given accumulator. -/
abbrev stepAt (c : Dev nD) (t : Fin cfg0.N) (acc : Vec F S2048x64 .f32) : Vec F S2048x64 .f32 :=
  step (grid0.coords t) (iblk m c 0 t) (iblk m c 1 t) (iblk m c 2 t) (iblk m c 3 t) acc

/-- After an even point: the step from the zero block. -/
theorem scratch_even (c : Dev nD) (t : Fin cfg0.N) (h0 : t.val % 2 = 0) (h1 : ¬t.val % 2 = 1) :
    (outsAt0 m c t.val t.isLt).2 = stepAt m c t (k0_pay2 (F := F)) := by
  rw [outsAt0_A m c t h0 h1]
  dsimp only
  exact sout_A c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t)

/-- After an odd point the output block holds the log-softmax payload of the step from what the point before left. -/
theorem out_odd (c : Dev nD) (t : Fin cfg0.N) (h0 : ¬t.val % 2 = 0) (h1 : t.val % 2 = 1) :
    (outsAt0 m c t.val t.isLt).1
      = k0_pay1 (stepAt m c t (outsAt0 m c (t.val - 1) (Nat.lt_of_le_of_lt (Nat.sub_le _ _) t.isLt)).2) := by
  rw [outsAt0_B m c t h0 h1]
  dsimp only
  exact out_B c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t)
    (outsAt0 m c (t.val - 1) (Nat.lt_of_le_of_lt (Nat.sub_le _ _) t.isLt)).2

/-- The point before an odd point. -/
abbrev prev (t : Fin cfg0.N) : Fin cfg0.N := ⟨t.val - 1, Nat.lt_of_le_of_lt (Nat.sub_le _ _) t.isLt⟩

/-- So after an odd point the output block holds the log-softmax payload of the two steps from the zero block. -/
theorem out_odd_full (c : Dev nD) (t : Fin cfg0.N) (h1 : t.val % 2 = 1) :
    (outsAt0 m c t.val t.isLt).1 = k0_pay1 (stepAt m c t (stepAt m c (prev t) (k0_pay2 (F := F)))) := by
  have h0 : ¬t.val % 2 = 0 := by omega
  refine (out_odd m c t h0 h1).trans ?_
  refine congrArg (fun a => k0_pay1 (stepAt m c t a)) ?_
  exact scratch_even m c (prev t) (by show (t.val - 1) % 2 = 0; omega) (by show ¬(t.val - 1) % 2 = 1; omega)

end Cert.KernelIdeal.Accum

end
-- ==== Proof.Spec.lean ====
/-
  The function both programs compute, index by index, on the extended reals.

  For batch b, head h, query row q and feature d the result is the log-softmax, over the 64 features of the row, of

      acc(b, h, q, e) = sum over the 2048 keys k of  s(b, h, q, k) * V(b, h, k, e),

  where the masked scaled score s(b, h, q, k) is the fill value where the mask (which has no head axis) is set and the
  contraction of the query row with the key row times 1/8 elsewhere. The log-softmax of a row x subtracts the row's
  maximum m (taken from minus infinity) and then the logarithm of the sum of the exponentials of x - m.

  The kernel works on the arrays with batch and head folded into one axis of 64 row blocks, the mask widened to 32-bit
  words, the scale applied to the query entries, and the keys in two tiles of 1024: its form of the same function is GK.
-/
import Idealize.ShloMosaic.PureOps.Ideal
import Idealize.ShloMosaic.Lib.ValueIdx

noncomputable section

open scoped BigOperators

namespace Cert.Attn

open Idealize.ShloMosaic Idealize.ShloMosaic.ValueIdx

/-- The value of the word both programs start their row maximum from (minus infinity). -/
abbrev ninf : EReal := Ideal.ofBits .f32 0xFF800000#32
/-- The value of the word both programs fill masked scores with. -/
abbrev fillv : EReal := Ideal.ofBits .f32 0xCE6E6B28#32

/-- A row's maximum as both programs take it: the fold of max from minus infinity, once more against minus infinity. -/
def rmax (row : Fin 64 → EReal) : EReal := max ninf ((Finset.univ : Finset (Fin 64)).fold max ninf row)

/-- The log-softmax of a row at feature d. -/
def lsm (row : Fin 64 → EReal) (d : Fin 64) : EReal :=
  (row d - rmax row) - Ideal.log (∑ e : Fin 64, Ideal.exp (row e - rmax row))

abbrev SQ : Shape := ⟨4, ![4, 16, 2048, 64]⟩
abbrev SM : Shape := ⟨4, ![4, 1, 2048, 2048]⟩
abbrev SQ3 : Shape := ⟨3, ![64, 2048, 64]⟩
abbrev SM3 : Shape := ⟨3, ![4, 2048, 2048]⟩

/-- The masked scaled score of query row q against key row k. -/
def score (Q K : SQ.Idx → EReal) (M : SM.Idx → BitVec 1) (b : Fin 4) (h : Fin 16) (q k : Fin 2048) : EReal :=
  Scalar.select (M (ix4 b (0 : Fin 1) q k)) fillv
    ((∑ dd : Fin 64, Q (ix4 b h q dd) * K (ix4 b h k dd)) * ((1 / 8 : ℝ) : EReal))

/-- The masked scores times the values, summed over the keys. -/
def acc (Q K V : SQ.Idx → EReal) (M : SM.Idx → BitVec 1) (b : Fin 4) (h : Fin 16) (q : Fin 2048) (e : Fin 64) : EReal :=
  ∑ k : Fin 2048, score Q K M b h q k * V (ix4 b h k e)

/-- THE RESULT: the row-wise log-softmax of the masked-score-weighted sum of the values. -/
def G (Q K V : SQ.Idx → EReal) (M : SM.Idx → BitVec 1) : SQ.Idx → EReal := fun i =>
  lsm (fun e => acc Q K V M ⟨(i 0).val, (i 0).isLt⟩ ⟨(i 1).val, (i 1).isLt⟩ ⟨(i 2).val, (i 2).isLt⟩ e) ⟨(i 3).val, (i 3).isLt⟩

theorem G_ix4 (Q K V : SQ.Idx → EReal) (M : SM.Idx → BitVec 1) (b : Fin 4) (h : Fin 16) (q : Fin 2048) (d : Fin 64) :
    G Q K V M (ix4 b h q d) = lsm (fun e => acc Q K V M b h q e) d := rfl

/-! ## The kernel's form, over the folded arrays -/

/-- The kernel's masked score inside key tile kt: the scale is on the query entries, the mask is a 32-bit word compared
    with zero, and the mask's batch is the row block's number divided by the 16 heads. -/
def kscore (A0 A1 : SQ3.Idx → EReal) (A3 : SM3.Idx → BitVec 32) (bh : Fin 64) (kt : Fin 2) (r : Fin 2048) (k : Fin 1024) : EReal :=
  Scalar.select (IntOp.cmpi .ne (A3 (ix3 (⟨bh.val / 16, by have := bh.isLt; omega⟩ : Fin 4) r
      (⟨kt.val * 1024 + k.val, by have := kt.isLt; have := k.isLt; omega⟩ : Fin 2048))) 0#32) fillv
    (∑ dd : Fin 64, (A0 (ix3 bh r dd) * Ideal.ofBits .f32 0x3E000000#32)
      * A1 (ix3 bh (⟨kt.val * 1024 + k.val, by have := kt.isLt; have := k.isLt; omega⟩ : Fin 2048) dd))

/-- One key tile's contribution to the accumulator. -/
def part (A0 A1 A2 : SQ3.Idx → EReal) (A3 : SM3.Idx → BitVec 32) (bh : Fin 64) (kt : Fin 2) (r : Fin 2048) (e : Fin 64) : EReal :=
  ∑ k : Fin 1024, kscore A0 A1 A3 bh kt r k
    * A2 (ix3 bh (⟨kt.val * 1024 + k.val, by have := kt.isLt; have := k.isLt; omega⟩ : Fin 2048) e)

/-- The accumulator after both tiles: the zero block, plus the first tile's contribution, plus the second's. -/
def kacc (A0 A1 A2 : SQ3.Idx → EReal) (A3 : SM3.Idx → BitVec 32) (bh : Fin 64) (r : Fin 2048) (e : Fin 64) : EReal :=
  (Ideal.ofBits .f32 0x00000000#32 + part A0 A1 A2 A3 bh 0 r e) + part A0 A1 A2 A3 bh 1 r e

/-- The kernel's result array over the folded arrays. -/
def GK (A0 A1 A2 : SQ3.Idx → EReal) (A3 : SM3.Idx → BitVec 32) : SQ3.Idx → EReal := fun i =>
  lsm (fun e => kacc A0 A1 A2 A3 ⟨(i 0).val, (i 0).isLt⟩ ⟨(i 1).val, (i 1).isLt⟩ e) ⟨(i 2).val, (i 2).isLt⟩

theorem GK_ix3 (A0 A1 A2 : SQ3.Idx → EReal) (A3 : SM3.Idx → BitVec 32) (bh : Fin 64) (r : Fin 2048) (d : Fin 64) :
    GK A0 A1 A2 A3 (ix3 bh r d) = lsm (fun e => kacc A0 A1 A2 A3 bh r e) d := rfl

end Cert.Attn

end
-- ==== Proof.LibKeepdims.lean ====
/-
  Column forms of the layout operations that a row reduction with a kept axis produces, read at an index, and a
  lane sum over the second axis of a matrix as the sum over that row's entries. General lemmas over any extents.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibKeepdims

open Idealize.ShloMosaic Idealize.ShloMosaic.ValueIdx

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to the row `[1, a]` reads, at `(u, i)`, the column at `i`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.zero_mul, Nat.zero_add, Nat.mul_one, Nat.add_zero])

/-- A column `[a, 1]` broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- On the extended reals a lane sum over the second axis of an `[a, b]` matrix is, at row `r`, the sum of that row's
    entries. -/
theorem multiReduction_add_rows {a b : ℕ} (src : FVec Ideal ⟨2, ![a, b]⟩ .f32) (acc : BitVec (FTy.bits .f32))
    (h : (⟨2, ![a, b]⟩ : Shape).Reduces [1] ⟨1, ![a]⟩) (hφ : FKind.Formats .f32) (hacc : acc = FKind.add.neutral .f32 hφ)
    (r : Fin a) :
    multiReduction .add [1] ⟨1, ![a]⟩ src acc h hφ hacc (ix1 r) = ∑ d : Fin b, src (ix2 r d) := by
  refine (Ideal.multiReduction_add_single src acc h hφ hacc (ix1 r)).trans ?_
  refine Finset.sum_congr rfl fun d _ => congrArg src (funext fun ax => Fin.ext ?_)
  match ax with
  | ⟨0, _⟩ => rfl
  | ⟨1, _⟩ => rfl

end Cert.LibKeepdims

end
-- ==== Proof.LibRowMax.lean ====
/-
  Maxima along one axis on the extended reals. A lane maximum over the second axis of a matrix, read at a row: the
  fold of `max`, from the value of the accumulator's pattern, over that row's entries. A host reduction by maximum over
  one axis, read at a result index: the fold of `max`, from the initial value, over that axis's coordinates.
  General in the shapes.
-/
import Idealize.ShloMosaic.Lib.ValueIdx
import Idealize.ShloMosaic.PureOps.Ideal.Laws

noncomputable section

namespace Cert.LibRowMax

open Idealize.ShloMosaic Idealize.ShloMosaic.ValueIdx

/-- On the extended reals a lane maximum over the second axis of an `[a, b]` matrix is, at row `r`, the fold of `max`
    from the accumulator's value over that row's entries. -/
theorem multiReduction_maximumf_rows {a b : ℕ} (src : FVec Ideal ⟨2, ![a, b]⟩ .f32) (acc : BitVec (FTy.bits .f32))
    (h : (⟨2, ![a, b]⟩ : Shape).Reduces [1] ⟨1, ![a]⟩) (hφ : FKind.Formats .f32)
    (hacc : acc = FKind.maximumf.neutral .f32 hφ) (r : Fin a) :
    multiReduction .maximumf [1] ⟨1, ![a]⟩ src acc h hφ hacc (ix1 r)
      = (Finset.univ : Finset (Fin b)).fold max (Ideal.ofBits .f32 acc) (fun d => src (ix2 r d)) := by
  refine (Ideal.multiReduction_maximumf_single src acc h hφ hacc (ix1 r)).trans ?_
  refine congrArg (fun f => (Finset.univ : Finset (Fin b)).fold max (Ideal.ofBits .f32 acc) f) (funext fun d => ?_)
  refine congrArg src (funext fun ax => Fin.ext ?_)
  match ax with
  | ⟨0, _⟩ => rfl
  | ⟨1, _⟩ => rfl

/-- On the extended reals the host's reduction by maximum over ONE axis is, at a result index `j`, the fold of `max` from
    the initial value over that axis's coordinates (the index `j` with the coordinate inserted on the reduced axis). -/
theorem hostReduce_maximumf_single {s t u : Shape} {a : Fin s.rank} (x : s.Idx → EReal) (init : u.Idx → EReal)
    (h' : s.ReducesTo [a] t) (h : s.Reduces [a] t) (hu : 0 < u.numel) (j : t.Idx) :
    Host.reduce (FloatOps.maximumf (F := Ideal) (φ := .f32)) x init h' hu j
      = (Finset.univ : Finset (Fin (s.size a))).fold max (init (Shape.Idx.first hu)) (fun k => x (h.lift j k)) :=
  Host.reduce_eq_fold_single (FloatOps.maximumf (F := Ideal) (φ := .f32)) x init h' h hu j

end Cert.LibRowMax

end
-- ==== Proof.PayAt.lean ====
/-
  The kernel body's two values read at an index, on the extended reals.

  The accumulate step at (r, d): what the accumulator held there, plus the sum over the tile's 1024 keys k of the masked
  score of query row r against key k times the value row k at d, the score being the fill value where the mask word is not
  zero and the contraction over the 64 features of (query entry times the scale) with the key entry elsewhere. A change of
  float format is the identity, a cast that drops the leading unit axis reads the same entry, the transposed key block
  reads the key block with its coordinates swapped, and each matrix product is the sum over its contracted coordinate.

  The write-back value at (u, r, d): the log-softmax of row r of the accumulator at d: the row maximum and the logarithm
  of the row sum of exponentials are each computed as a column of 2048 entries and broadcast back along the 64 features.
-/
import proofs.«178710_j18391049961538_2_alg».proof.Proof.Gen.KernelIdeal.Skeleton
import proofs.«178710_j18391049961538_2_alg».proof.Proof.Spec
import proofs.«178710_j18391049961538_2_alg».proof.Proof.LibKeepdims
import proofs.«178710_j18391049961538_2_alg».proof.Proof.LibRowMax
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.PayAt

open Cert.KernelIdeal Cert.KernelIdeal.Gen Idealize.ShloMosaic Idealize.ShloMosaic.ValueIdx Cert.Attn

theorem scores_apply_lhs0 (i : S2048x1024.Idx) (q : dot_S2048x64_S64x1024_S2048x1024_1_0_0_1_n_n.contr.Idx) : (dot_S2048x64_S64x1024_S2048x1024_1_0_0_1_n_n.lhsIdx i q 0).val = (i 0).val := by
  unfold DotDims.lhsIdx
  rw [dif_neg (show ¬(0 : Fin S2048x64.rank) ∈ dot_S2048x64_S64x1024_S2048x1024_1_0_0_1_n_n.lhsBatch by decide), dif_pos (show (0 : Fin S2048x64.rank) ∈ dot_S2048x64_S64x1024_S2048x1024_1_0_0_1_n_n.lhsNonContracting by decide)]
  rfl
theorem scores_apply_rhs1 (i : S2048x1024.Idx) (q : dot_S2048x64_S64x1024_S2048x1024_1_0_0_1_n_n.contr.Idx) : (dot_S2048x64_S64x1024_S2048x1024_1_0_0_1_n_n.rhsIdx i q 1).val = (i 1).val := by
  unfold DotDims.rhsIdx
  rw [dif_neg (show ¬(1 : Fin S64x1024.rank) ∈ dot_S2048x64_S64x1024_S2048x1024_1_0_0_1_n_n.rhsBatch by decide), dif_pos (show (1 : Fin S64x1024.rank) ∈ dot_S2048x64_S64x1024_S2048x1024_1_0_0_1_n_n.rhsNonContracting by decide)]
  rfl

/-- The kernel's 2048x64 by 64x1024 product into the zero block, read at (r, c): the sum over the contracted coordinate. -/
theorem scores_apply (l : FVec Ideal S2048x64 .bf16) (rr : FVec Ideal S64x1024 .bf16) (r : Fin 2048) (c : Fin 1024) :
    matmul dot_S2048x64_S64x1024_S2048x1024_1_0_0_1_n_n none l rr (constant (F := Ideal) S2048x1024 .f32 0x00000000#32) (ix2 r c)
      = ∑ q : Fin 64, l (ix2 r q) * rr (ix2 q c) := by
  simp only [matmul]
  rw [Ideal.matmul_constant_zero_apply, ← Equiv.sum_comp (contrEquiv1 dot_S2048x64_S64x1024_S2048x1024_1_0_0_1_n_n 64 rfl rfl).symm]
  refine Finset.sum_congr rfl fun q _ => ?_
  have hq := contrEquiv1_symm_val dot_S2048x64_S64x1024_S2048x1024_1_0_0_1_n_n 64 rfl rfl q
  have el : dot_S2048x64_S64x1024_S2048x1024_1_0_0_1_n_n.lhsIdx (ix2 r c) ((contrEquiv1 dot_S2048x64_S64x1024_S2048x1024_1_0_0_1_n_n 64 rfl rfl).symm q) = ix2 r q := funext fun a => Fin.ext (by
    match a with
    | ⟨0, _⟩ => exact scores_apply_lhs0 _ _
    | ⟨1, _⟩ => exact (dot_S2048x64_S64x1024_S2048x1024_1_0_0_1_n_n.lhsIdx_val_of_single rfl _ _).trans hq)
  have er : dot_S2048x64_S64x1024_S2048x1024_1_0_0_1_n_n.rhsIdx (ix2 r c) ((contrEquiv1 dot_S2048x64_S64x1024_S2048x1024_1_0_0_1_n_n 64 rfl rfl).symm q) = ix2 q c := funext fun a => Fin.ext (by
    match a with
    | ⟨0, _⟩ => exact (dot_S2048x64_S64x1024_S2048x1024_1_0_0_1_n_n.rhsIdx_val_of_single rfl _ _).trans hq
    | ⟨1, _⟩ => exact scores_apply_rhs1 _ _)
  rw [el, er]

theorem weighted_apply_lhs0 (i : S2048x64.Idx) (q : dot_S2048x1024_S1024x64_S2048x64_1_0_0_1_n_n.contr.Idx) : (dot_S2048x1024_S1024x64_S2048x64_1_0_0_1_n_n.lhsIdx i q 0).val = (i 0).val := by
  unfold DotDims.lhsIdx
  rw [dif_neg (show ¬(0 : Fin S2048x1024.rank) ∈ dot_S2048x1024_S1024x64_S2048x64_1_0_0_1_n_n.lhsBatch by decide), dif_pos (show (0 : Fin S2048x1024.rank) ∈ dot_S2048x1024_S1024x64_S2048x64_1_0_0_1_n_n.lhsNonContracting by decide)]
  rfl
theorem weighted_apply_rhs1 (i : S2048x64.Idx) (q : dot_S2048x1024_S1024x64_S2048x64_1_0_0_1_n_n.contr.Idx) : (dot_S2048x1024_S1024x64_S2048x64_1_0_0_1_n_n.rhsIdx i q 1).val = (i 1).val := by
  unfold DotDims.rhsIdx
  rw [dif_neg (show ¬(1 : Fin S1024x64.rank) ∈ dot_S2048x1024_S1024x64_S2048x64_1_0_0_1_n_n.rhsBatch by decide), dif_pos (show (1 : Fin S1024x64.rank) ∈ dot_S2048x1024_S1024x64_S2048x64_1_0_0_1_n_n.rhsNonContracting by decide)]
  rfl

/-- The kernel's 2048x1024 by 1024x64 product into the zero block, read at (r, c): the sum over the contracted coordinate. -/
theorem weighted_apply (l : FVec Ideal S2048x1024 .f32) (rr : FVec Ideal S1024x64 .f32) (r : Fin 2048) (c : Fin 64) :
    matmul dot_S2048x1024_S1024x64_S2048x64_1_0_0_1_n_n (some .fp32) l rr (constant (F := Ideal) S2048x64 .f32 0x00000000#32) (ix2 r c)
      = ∑ q : Fin 1024, l (ix2 r q) * rr (ix2 q c) := by
  simp only [matmul]
  rw [Ideal.matmul_constant_zero_apply, ← Equiv.sum_comp (contrEquiv1 dot_S2048x1024_S1024x64_S2048x64_1_0_0_1_n_n 1024 rfl rfl).symm]
  refine Finset.sum_congr rfl fun q _ => ?_
  have hq := contrEquiv1_symm_val dot_S2048x1024_S1024x64_S2048x64_1_0_0_1_n_n 1024 rfl rfl q
  have el : dot_S2048x1024_S1024x64_S2048x64_1_0_0_1_n_n.lhsIdx (ix2 r c) ((contrEquiv1 dot_S2048x1024_S1024x64_S2048x64_1_0_0_1_n_n 1024 rfl rfl).symm q) = ix2 r q := funext fun a => Fin.ext (by
    match a with
    | ⟨0, _⟩ => exact weighted_apply_lhs0 _ _
    | ⟨1, _⟩ => exact (dot_S2048x1024_S1024x64_S2048x64_1_0_0_1_n_n.lhsIdx_val_of_single rfl _ _).trans hq)
  have er : dot_S2048x1024_S1024x64_S2048x64_1_0_0_1_n_n.rhsIdx (ix2 r c) ((contrEquiv1 dot_S2048x1024_S1024x64_S2048x64_1_0_0_1_n_n 1024 rfl rfl).symm q) = ix2 q c := funext fun a => Fin.ext (by
    match a with
    | ⟨0, _⟩ => exact (dot_S2048x1024_S1024x64_S2048x64_1_0_0_1_n_n.rhsIdx_val_of_single rfl _ _).trans hq
    | ⟨1, _⟩ => exact weighted_apply_rhs1 _ _)
  rw [el, er]

/-- The accumulate step read at (r, d). -/
theorem pay3_apply (v3 : Vec Ideal S1x2048x64 .f32) (v8 : Vec Ideal S1x1024x64 .f32) (v16 : Vec Ideal S1x2048x1024 .i32)
    (v21 : Vec Ideal S1x1024x64 .f32) (v23 : Vec Ideal S2048x64 .f32) (r : Fin 2048) (d : Fin 64) :
    k0_pay3 (F := Ideal) v3 v8 v16 v21 v23 (ix2 r d)
      = v23 (ix2 r d) + ∑ k : Fin 1024,
          Scalar.select (IntOp.cmpi .ne (v16 (ix3 (0 : Fin 1) r k)) 0#32) fillv
            (∑ dd : Fin 64, (v3 (ix3 (0 : Fin 1) r dd) * Ideal.ofBits .f32 0x3E000000#32) * v8 (ix3 (0 : Fin 1) k dd))
          * v21 (ix3 (0 : Fin 1) k d) := by
  unfold k0_pay3
  refine (congrFun (shapeCast_self _ _) (ix2 r d)).trans ?_
  refine (addf_apply _ _ (ix2 r d)).trans ?_
  refine congrArg (fun z => v23 (ix2 r d) + z) ?_
  refine (weighted_apply _ _ r d).trans ?_
  refine Finset.sum_congr rfl fun k _ => ?_
  refine congrArg₂ (fun a b => a * b) ?_ (shapeCast_1ab_ab_apply v21 _ k d)
  refine (select_apply _ _ _ (ix2 r k)).trans ?_
  refine congrArg₂ (fun cnd x => Scalar.select cnd fillv x)
    (congrArg (fun z => IntOp.cmpi .ne z 0#32) (shapeCast_1ab_ab_apply v16 _ r k)) ?_
  refine (scores_apply _ _ r k).trans ?_
  refine Finset.sum_congr rfl fun dd _ => ?_
  refine congrArg₂ (fun a b => a * b) ?_ ?_
  · exact congrArg (fun z => z * Ideal.ofBits .f32 0x3E000000#32) (shapeCast_1ab_ab_apply v3 _ r dd)
  · exact (transpose_ix2_apply _ _ dd k).trans (shapeCast_1ab_ab_apply v8 _ k dd)

/-- The zero block the first tile starts from reads the zero word's value everywhere. -/
theorem pay2_apply (j : S2048x64.Idx) : k0_pay2 (F := Ideal) j = Ideal.ofBits .f32 0x00000000#32 := by
  unfold k0_pay2
  exact congrFun (shapeCast_self _ _) j

/-- The row maximum of a block, from minus infinity and once more against minus infinity, broadcast back along the features. -/
def rowmaxB (x : FVec Ideal S2048x64 .f32) : FVec Ideal S2048x64 .f32 :=
  broadcastTo S2048x64 (shapeCast S2048x1 (maximumf (broadcast S2048 (Scalar.ofBits (F := Ideal) .f32 0xFF800000#32))
    (multiReduction .maximumf [1] S2048 x 0xFF800000#32 reduces_S2048x64_S2048 (.inl rfl) rfl)) shapeCasts_S2048_S2048x1)
    broadcasts_S2048x1_S2048x64

/-- The logarithm of the row sum of the exponentials of a block, broadcast back along the features. -/
def logsumB (y : FVec Ideal S2048x64 .f32) : FVec Ideal S2048x64 .f32 :=
  broadcastTo S2048x64 (log (shapeCast S2048x1 (multiReduction .add [1] S2048 (exp y) 0x00000000#32 reduces_S2048x64_S2048 (.inl rfl) rfl)
    shapeCasts_S2048_S2048x1)) broadcasts_S2048x1_S2048x64

/-- The write-back payload is the block minus its row maxima, minus the log row sums of that. -/
theorem pay1_eq (v32 : Vec Ideal S2048x64 .f32) :
    k0_pay1 (F := Ideal) v32
      = shapeCast S1x2048x64 (subf (subf v32 (rowmaxB v32)) (logsumB (subf v32 (rowmaxB v32)))) shapeCasts_S2048x64_S1x2048x64 := rfl

theorem rowmaxB_apply (x : FVec Ideal S2048x64 .f32) (r : Fin 2048) (d : Fin 64) :
    rowmaxB x (ix2 r d) = rmax (fun e => x (ix2 r e)) := by
  unfold rowmaxB
  refine (Cert.LibKeepdims.broadcastTo_a1_ab_apply _ broadcasts_S2048x1_S2048x64 r d).trans ?_
  refine (Cert.LibKeepdims.shapeCast_a_a1_apply _ shapeCasts_S2048_S2048x1 r (0 : Fin 1)).trans ?_
  refine (maximumf_apply _ _ (ix1 r)).trans ?_
  exact congrArg (fun z => max ninf z) (Cert.LibRowMax.multiReduction_maximumf_rows x 0xFF800000#32 reduces_S2048x64_S2048 (.inl rfl) rfl r)

theorem logsumB_apply (y : FVec Ideal S2048x64 .f32) (r : Fin 2048) (d : Fin 64) :
    logsumB y (ix2 r d) = Ideal.log (∑ e : Fin 64, Ideal.exp (y (ix2 r e))) := by
  unfold logsumB
  refine (Cert.LibKeepdims.broadcastTo_a1_ab_apply _ broadcasts_S2048x1_S2048x64 r d).trans ?_
  show Ideal.log (shapeCast S2048x1 _ shapeCasts_S2048_S2048x1 (ix2 r (0 : Fin 1))) = _
  refine congrArg Ideal.log ?_
  refine (Cert.LibKeepdims.shapeCast_a_a1_apply _ shapeCasts_S2048_S2048x1 r (0 : Fin 1)).trans ?_
  exact Cert.LibKeepdims.multiReduction_add_rows (exp y) 0x00000000#32 reduces_S2048x64_S2048 (.inl rfl) rfl r

/-- The write-back payload read at (u, r, d): the log-softmax of row r at d. -/
theorem pay1_apply (v32 : Vec Ideal S2048x64 .f32) (u : Fin 1) (r : Fin 2048) (d : Fin 64) :
    k0_pay1 (F := Ideal) v32 (ix3 u r d) = lsm (fun e => v32 (ix2 r e)) d := by
  rw [pay1_eq]
  refine (shapeCast_ab_1ab_apply _ shapeCasts_S2048x64_S1x2048x64 u r d).trans ?_
  refine (subf_apply _ _ (ix2 r d)).trans ?_
  rw [logsumB_apply]
  unfold lsm
  refine congrArg₂ (fun a b => a - b) ?_ ?_
  · exact (subf_apply _ _ (ix2 r d)).trans (congrArg (fun z => v32 (ix2 r d) - z) (rowmaxB_apply v32 r d))
  · refine congrArg Ideal.log (Finset.sum_congr rfl fun e _ => congrArg Ideal.exp ?_)
    exact (subf_apply _ _ (ix2 r e)).trans (congrArg (fun z => v32 (ix2 r e) - z) (rowmaxB_apply v32 r e))

end Cert.KernelIdeal.PayAt

end
-- ==== Proof.Final.lean ====
/-
  From the blocks to the array: the kernel's result array, over the folded arrays as the region finds them.

  Point t of the grid is key tile t mod 2 of row block t div 2. Its query block is rows 0..2047 of row block t div 2, its
  key and value blocks are rows (t mod 2) * 1024 .. + 1023 of that row block, its mask block is the whole mask of batch
  (t div 2) div 16, of which the body reads columns (t mod 2) * 1024 .. + 1023. A block's coordinate is always the block
  index times the block size plus the coordinate inside the block. So the step at point t adds to the accumulator, at
  (r, e), key tile t mod 2's contribution to row r of row block t div 2; an odd point, after the even point before it,
  leaves the zero block plus both tiles' contributions, writes the row-wise log-softmax of that, and it alone writes the
  output block back: row block b of the result array is written by point 2 b + 1, and these blocks cover the array.
-/
import proofs.«178710_j18391049961538_2_alg».proof.Proof.Gen.KernelIdeal.Frame
import proofs.«178710_j18391049961538_2_alg».proof.Proof.Accum
import proofs.«178710_j18391049961538_2_alg».proof.Proof.PayAt
import proofs.«178710_j18391049961538_2_alg».proof.Proof.Spec
import Idealize.ShloMosaic.Lib.Pipeline.Value
import Idealize.ShloMosaic.Lib.ValueIdx

noncomputable section

open Idealize.ShloMosaic Idealize.ShloMosaic.TcCoe Idealize.SL.Sem
open Idealize.ShloMosaic.Pipeline (Dat)

namespace Cert.KernelIdeal.Final

open Cert.KernelIdeal Cert.KernelIdeal.Gen Idealize.ShloMosaic.ValueIdx Cert.Attn

variable (m : (ℓ : Loc nD τ sig) → Buf (Elt Ideal) ℓ)

/-- The folded query, key and value arrays and the widened mask, as the region finds them. -/
abbrev A0 (c : Dev nD) : SQ3.Idx → EReal := V m c main_v0
abbrev A1 (c : Dev nD) : SQ3.Idx → EReal := V m c main_v1
abbrev A2 (c : Dev nD) : SQ3.Idx → EReal := V m c main_v2
abbrev A3 (c : Dev nD) : SM3.Idx → BitVec 32 := V m c main_v4

theorem hN (t : Fin cfg0.N) : t.val < 128 := lt_of_lt_of_eq t.isLt (show cfg0.N = 128 from N_0)

/-- The row block and the key tile of a grid point. -/
abbrev bhOf (t : Fin cfg0.N) : Fin 64 := ⟨t.val / 2, by have := hN t; omega⟩
abbrev ktOf (t : Fin cfg0.N) : Fin 2 := ⟨t.val % 2, by omega⟩

/-- The printed index maps and the mask tile's offsets, decided over the grid. -/
theorem idx_facts : ∀ t : Fin cfg0.N,
    win0_0.index t (0 : Fin 3) = t.val / 2 ∧ win0_0.index t (1 : Fin 3) = 0 ∧ win0_0.index t (2 : Fin 3) = 0
    ∧ win0_1.index t (0 : Fin 3) = t.val / 2 ∧ win0_1.index t (1 : Fin 3) = t.val % 2 ∧ win0_1.index t (2 : Fin 3) = 0
    ∧ win0_2.index t (0 : Fin 3) = t.val / 2 ∧ win0_2.index t (1 : Fin 3) = t.val % 2 ∧ win0_2.index t (2 : Fin 3) = 0
    ∧ win0_3.index t (0 : Fin 3) = t.val / 2 / 16 ∧ win0_3.index t (1 : Fin 3) = 0 ∧ win0_3.index t (2 : Fin 3) = 0
    ∧ win0_4.index t (0 : Fin 3) = t.val / 2 ∧ win0_4.index t (1 : Fin 3) = 0 ∧ win0_4.index t (2 : Fin 3) = 0 :=
  (by decide +kernel : ∀ t : Fin grid0.N, _)

theorem off_facts : ∀ t : Fin cfg0.N, k0_off1 (grid0.coords t) (0 : Fin 3) = 0 ∧ k0_off1 (grid0.coords t) (1 : Fin 3) = 0
    ∧ k0_off1 (grid0.coords t) (2 : Fin 3) = t.val % 2 * 1024 :=
  (by decide +kernel : ∀ t : Fin grid0.N, _)

/-! ## The blocks read through their windows -/

theorem blk0 (c : Dev nD) (t : Fin cfg0.N) (u : Fin 1) (r : Fin 2048) (dd : Fin 64) :
    (iblk m c 0 t : Vec Ideal S1x2048x64 .f32) (ix3 u r dd) = A0 m c (ix3 (bhOf t) r dd) := by
  obtain ⟨e0, e1, e2, -⟩ := idx_facts t
  unfold iblk
  rw [View.read_apply]
  show V m c main_v0 (((cfg0.win 0).blk t).view.emb (ix3 u r dd)) = V m c main_v0 (ix3 (bhOf t) r dd)
  refine congrArg (V m c main_v0) (funext fun a => Fin.ext ?_)
  match a with
  | ⟨0, _⟩ => show win0_0.index t (0 : Fin 3) * 1 + 1 * u.val = t.val / 2; have := u.isLt; omega
  | ⟨1, _⟩ => show win0_0.index t (1 : Fin 3) * 2048 + 1 * r.val = r.val; omega
  | ⟨2, _⟩ => show win0_0.index t (2 : Fin 3) * 64 + 1 * dd.val = dd.val; omega

theorem blk1 (c : Dev nD) (t : Fin cfg0.N) (u : Fin 1) (k : Fin 1024) (dd : Fin 64) :
    (iblk m c 1 t : Vec Ideal S1x1024x64 .f32) (ix3 u k dd)
      = A1 m c (ix3 (bhOf t) (⟨(ktOf t).val * 1024 + k.val, by have := k.isLt; have : (ktOf t).val < 2 := (ktOf t).isLt; omega⟩ : Fin 2048) dd) := by
  obtain ⟨-, -, -, e0, e1, e2, -⟩ := idx_facts t
  unfold iblk
  rw [View.read_apply]
  show V m c main_v1 (((cfg0.win 1).blk t).view.emb (ix3 u k dd)) = V m c main_v1 _
  refine congrArg (V m c main_v1) (funext fun a => Fin.ext ?_)
  match a with
  | ⟨0, _⟩ => show win0_1.index t (0 : Fin 3) * 1 + 1 * u.val = t.val / 2; have := u.isLt; omega
  | ⟨1, _⟩ => show win0_1.index t (1 : Fin 3) * 1024 + 1 * k.val = t.val % 2 * 1024 + k.val; omega
  | ⟨2, _⟩ => show win0_1.index t (2 : Fin 3) * 64 + 1 * dd.val = dd.val; omega

theorem blk2 (c : Dev nD) (t : Fin cfg0.N) (u : Fin 1) (k : Fin 1024) (e : Fin 64) :
    (iblk m c 2 t : Vec Ideal S1x1024x64 .f32) (ix3 u k e)
      = A2 m c (ix3 (bhOf t) (⟨(ktOf t).val * 1024 + k.val, by have := k.isLt; have : (ktOf t).val < 2 := (ktOf t).isLt; omega⟩ : Fin 2048) e) := by
  obtain ⟨-, -, -, -, -, -, e0, e1, e2, -⟩ := idx_facts t
  unfold iblk
  rw [View.read_apply]
  show V m c main_v2 (((cfg0.win 2).blk t).view.emb (ix3 u k e)) = V m c main_v2 _
  refine congrArg (V m c main_v2) (funext fun a => Fin.ext ?_)
  match a with
  | ⟨0, _⟩ => show win0_2.index t (0 : Fin 3) * 1 + 1 * u.val = t.val / 2; have := u.isLt; omega
  | ⟨1, _⟩ => show win0_2.index t (1 : Fin 3) * 1024 + 1 * k.val = t.val % 2 * 1024 + k.val; omega
  | ⟨2, _⟩ => show win0_2.index t (2 : Fin 3) * 64 + 1 * e.val = e.val; omega

theorem blk3 (c : Dev nD) (t : Fin cfg0.N) (u : Fin 1) (r : Fin 2048) (kk : Fin 2048) :
    (iblk m c 3 t : Vec Ideal S1x2048x2048 .i32) (ix3 u r kk)
      = A3 m c (ix3 (⟨(bhOf t).val / 16, by have : (bhOf t).val < 64 := (bhOf t).isLt; omega⟩ : Fin 4) r kk) := by
  obtain ⟨-, -, -, -, -, -, -, -, -, e0, e1, e2, -⟩ := idx_facts t
  unfold iblk
  rw [View.read_apply]
  show V m c main_v4 (((cfg0.win 3).blk t).view.emb (ix3 u r kk)) = V m c main_v4 _
  refine congrArg (V m c main_v4) (funext fun a => Fin.ext ?_)
  match a with
  | ⟨0, _⟩ => show win0_3.index t (0 : Fin 3) * 1 + 1 * u.val = t.val / 2 / 16; have := u.isLt; omega
  | ⟨1, _⟩ => show win0_3.index t (1 : Fin 3) * 2048 + 1 * r.val = r.val; omega
  | ⟨2, _⟩ => show win0_3.index t (2 : Fin 3) * 2048 + 1 * kk.val = kk.val; omega

/-- The mask tile reads the resident mask block at the tile's columns (stated over any block and offsets). -/
theorem mtile_apply (i : grid0.Coords) (x3 : Vec Ideal S1x2048x2048 .i32) (o : Nat)
    (h0 : k0_off1 i (0 : Fin 3) = 0) (h1 : k0_off1 i (1 : Fin 3) = 0) (h2 : k0_off1 i (2 : Fin 3) = o)
    (r : Fin 2048) (k : Fin 1024) (ho : o + k.val < 2048) :
    Pieces.mtile i x3 (ix3 (0 : Fin 1) r k) = x3 (ix3 (0 : Fin 1) r (⟨o + k.val, ho⟩ : Fin 2048)) := by
  show x3 ((Rect.unit (s := S1x2048x2048) (k0_off1 i) S1x2048x1024.size (k0_off1_inb i)).idx (ix3 (0 : Fin 1) r k)) = _
  refine congrArg x3 (funext fun a => Fin.ext ?_)
  match a with
  | ⟨0, _⟩ => show k0_off1 i (0 : Fin 3) + 1 * 0 = 0; omega
  | ⟨1, _⟩ => show k0_off1 i (1 : Fin 3) + 1 * r.val = r.val; omega
  | ⟨2, _⟩ => show k0_off1 i (2 : Fin 3) + 1 * k.val = o + k.val; omega

/-! ## One step, and the two steps of a row block -/

/-- The step at point t adds key tile (t mod 2)'s contribution to row block (t div 2). -/
theorem step_apply (c : Dev nD) (t : Fin cfg0.N) (acc : Vec Ideal S2048x64 .f32) (r : Fin 2048) (e : Fin 64) :
    Accum.stepAt m c t acc (ix2 r e)
      = acc (ix2 r e) + part (A0 m c) (A1 m c) (A2 m c) (A3 m c) (bhOf t) (ktOf t) r e := by
  obtain ⟨o0, o1, o2⟩ := off_facts t
  refine (PayAt.pay3_apply _ _ _ _ acc r e).trans ?_
  refine congrArg (fun z => acc (ix2 r e) + z) ?_
  unfold part
  refine Finset.sum_congr rfl fun k _ => ?_
  refine congrArg₂ (fun a b => a * b) ?_ (blk2 m c t 0 k e)
  unfold kscore
  have hm : Pieces.mtile (grid0.coords t) (iblk m c 3 t) (ix3 (0 : Fin 1) r k)
      = A3 m c (ix3 (⟨(bhOf t).val / 16, by have : (bhOf t).val < 64 := (bhOf t).isLt; omega⟩ : Fin 4) r
          (⟨(ktOf t).val * 1024 + k.val, by have := k.isLt; have : (ktOf t).val < 2 := (ktOf t).isLt; omega⟩ : Fin 2048)) :=
    (mtile_apply (grid0.coords t) (iblk m c 3 t) (t.val % 2 * 1024) o0 o1 o2 r k (by have := k.isLt; omega)).trans
      (blk3 m c t 0 r _)
  refine congrArg₂ (fun cnd x => Scalar.select cnd fillv x) (congrArg (fun z => IntOp.cmpi .ne z 0#32) hm) ?_
  exact Finset.sum_congr rfl fun dd _ => congrArg₂ (fun a b => a * b)
    (congrArg (fun z => z * Ideal.ofBits .f32 0x3E000000#32) (blk0 m c t 0 r dd)) (blk1 m c t 0 k dd)

/-- After an odd point the accumulator's two steps are the zero block plus both key tiles' contributions. -/
theorem two_steps (c : Dev nD) (t : Fin cfg0.N) (h1 : t.val % 2 = 1) (r : Fin 2048) (e : Fin 64) :
    Accum.stepAt m c t (Accum.stepAt m c (Accum.prev t) (k0_pay2 (F := Ideal))) (ix2 r e)
      = kacc (A0 m c) (A1 m c) (A2 m c) (A3 m c) (bhOf t) r e := by
  refine (step_apply m c t _ r e).trans ?_
  refine (congrArg (fun z => z + part (A0 m c) (A1 m c) (A2 m c) (A3 m c) (bhOf t) (ktOf t) r e)
    ((step_apply m c (Accum.prev t) _ r e).trans
      (congrArg (fun z => z + part (A0 m c) (A1 m c) (A2 m c) (A3 m c) (bhOf (Accum.prev t)) (ktOf (Accum.prev t)) r e)
        (PayAt.pay2_apply (ix2 r e))))).trans ?_
  have hb : bhOf (Accum.prev t) = bhOf t := Fin.ext (by show (t.val - 1) / 2 = t.val / 2; omega)
  have hk0 : ktOf (Accum.prev t) = (0 : Fin 2) := Fin.ext (by show (t.val - 1) % 2 = 0; omega)
  have hk1 : ktOf t = (1 : Fin 2) := Fin.ext (by show t.val % 2 = 1; omega)
  rw [hb, hk0, hk1]
  rfl

/-! ## What an odd point writes back, the cover, and the array -/

/-- The kernel's result array over the folded arrays. -/
abbrev GKarr (c : Dev nD) : SQ3.Idx → EReal := GK (A0 m c) (A1 m c) (A2 m c) (A3 m c)

/-- What a writing point writes back is its block of that array. -/
theorem flushed_eq (c : Dev nD) (t : Fin cfg0.N) (hf : (cfg0.win 4).flush t = true) :
    (dats m 0 c).flushed 4 t = ((cfg0.win 4).blk t).view.read (Elt Ideal) (GKarr m c) := by
  have h1 : t.val % 2 = 1 := (flush0_4 t).mp hf
  obtain ⟨-, -, -, -, -, -, -, -, -, -, -, -, e0, e1, e2⟩ := idx_facts t
  show (cfg0.win 4).cut (grid0.coords t) ((dats m 0 c).after 4 t) = _
  rw [after0_4, Accum.out_odd_full m c t h1]
  refine funext fun (j : S1x2048x64.Idx) => ?_
  obtain ⟨u, r, d, rfl⟩ : ∃ (u : Fin 1) (r : Fin 2048) (d : Fin 64), j = ix3 u r d := ⟨j 0, j 1, j 2, eq_ix3 j⟩
  rw [View.read_apply]
  show k0_pay1 (F := Ideal) (Accum.stepAt m c t (Accum.stepAt m c (Accum.prev t) (k0_pay2 (F := Ideal)))) (ix3 u r d)
    = GKarr m c (((cfg0.win 4).blk t).view.emb (ix3 u r d))
  have hemb : ((cfg0.win 4).blk t).view.emb (ix3 u r d) = (ix3 (bhOf t) r d : SQ3.Idx) := funext fun a => Fin.ext (by
    match a with
    | ⟨0, _⟩ => show win0_4.index t (0 : Fin 3) * 1 + 1 * u.val = t.val / 2; have := u.isLt; omega
    | ⟨1, _⟩ => show win0_4.index t (1 : Fin 3) * 2048 + 1 * r.val = r.val; omega
    | ⟨2, _⟩ => show win0_4.index t (2 : Fin 3) * 64 + 1 * d.val = d.val; omega)
  refine (PayAt.pay1_apply _ u r d).trans ?_
  refine Eq.trans ?_ (congrArg (GKarr m c) hemb).symm
  refine Eq.trans ?_ (GK_ix3 (A0 m c) (A1 m c) (A2 m c) (A3 m c) (bhOf t) r d).symm
  exact congrArg (fun row => lsm row d) (funext fun e => two_steps m c t h1 r e)

/-- An index of the result array is in point t's block iff each coordinate is in the block's range on its axis. -/
theorem mem_blk (t : Fin cfg0.N) (i : S64x2048x64.Idx) :
    i ∈ ((cfg0.win 4).blk t).view.set ↔ ∀ a : Fin 3, win0_4.index t a * S1x2048x64.size a ≤ (i a).val
      ∧ (i a).val < win0_4.index t a * S1x2048x64.size a + S1x2048x64.size a := by
  show i ∈ ((View.whole main_v5).slice (win0_4.rect t)).set ↔ _
  rw [View.set_slice_whole, Rect.mem_set_unit]
  exact Iff.rfl

/-- The array after the run. -/
theorem final (c : Dev nD) : (dats m 0 c).arrAt 4 cfg0.N = GKarr m c :=
  (dats m 0 c).arrAt_eq_of_cover 4 (GKarr m c) (fun t hf => flushed_eq m c t hf) fun i => by
    have h0 : (i 0).val < 64 := (i 0).isLt
    have hi1 : (i 1).val < 2048 := (i 1).isLt
    have hi2 : (i 2).val < 64 := (i 2).isLt
    let t : Fin cfg0.N := ⟨2 * (i 0).val + 1, by rw [show cfg0.N = 128 from N_0]; omega⟩
    have tv : t.val = 2 * (i 0).val + 1 := rfl
    obtain ⟨-, -, -, -, -, -, -, -, -, -, -, -, e0, e1, e2⟩ := idx_facts t
    refine ⟨t, (flush0_4 t).mpr (by rw [tv]; omega), ?_⟩
    rw [mem_blk]
    intro a
    match a with
    | ⟨0, _⟩ => show win0_4.index t (0 : Fin 3) * 1 ≤ (i 0).val ∧ (i 0).val < win0_4.index t (0 : Fin 3) * 1 + 1; omega
    | ⟨1, _⟩ => show win0_4.index t (1 : Fin 3) * 2048 ≤ (i 1).val ∧ (i 1).val < win0_4.index t (1 : Fin 3) * 2048 + 2048; omega
    | ⟨2, _⟩ => show win0_4.index t (2 : Fin 3) * 64 ≤ (i 2).val ∧ (i 2).val < win0_4.index t (2 : Fin 3) * 64 + 64; omega

end Cert.KernelIdeal.Final

end
-- ==== Proof.Scale.lean ====
/-
  The constants of the attention scores and the one law that joins the two programs.

  The kernel multiplies every query entry by the dyadic 1/8 before contracting with the keys; the reference contracts
  first and divides the score by the square root of 64. On the extended reals the square root of 64 is 8, a quotient
  by 8 is the product with 1/8, and a nonnegative real factor moves across a finite sum (multiplication by a
  nonnegative finite number distributes over every sum of extended reals, infinite terms included). The key axis of
  length 2048 is summed by the kernel as two halves of 1024.
-/
import Idealize.ShloMosaic.PureOps.Ideal
import Idealize.ShloMosaic.PureOps.Ideal.Laws

noncomputable section

open scoped BigOperators

namespace Cert.Attn

open Idealize.ShloMosaic

/-- The kernel's scale word denotes the real 1/8. -/
theorem ofBits_eighth : Ideal.ofBits .f32 0x3E000000#32 = ((1 / 8 : ℝ) : EReal) := by
  simp [Ideal.ofBits, Ideal.ieee, -EReal.coe_mul]; norm_num

/-- The reference's word under the square root denotes the real 64. -/
theorem ofBits_64 : Ideal.ofBits .f32 0x42800000#32 = ((64 : ℝ) : EReal) := by
  simp [Ideal.ofBits, Ideal.ieee, -EReal.coe_mul]; norm_num

/-- The zero word denotes 0. -/
theorem ofBits_zero : Ideal.ofBits .f32 0x00000000#32 = 0 := Ideal.ofBits_zero_f32

/-- The square root of 64 is 8. -/
theorem sqrt_64 : Ideal.sqrt ((64 : ℝ) : EReal) = ((8 : ℝ) : EReal) := by
  rw [Ideal.sqrt_coe, if_neg (by norm_num)]
  congr 1
  rw [show (64 : ℝ) = 8 ^ 2 by norm_num, Real.sqrt_sq (by norm_num)]

/-- The reference's quotient by the square root of 64 is the product with 1/8, for every extended real. -/
theorem div_sqrt_64 (x : EReal) :
    Ideal.div x (Ideal.sqrt (Ideal.ofBits .f32 0x42800000#32)) = x * ((1 / 8 : ℝ) : EReal) := by
  rw [ofBits_64, sqrt_64, Ideal.div_coe (by norm_num)]

/-- A nonnegative real factor on the left operand of every product moves out of the sum of the products. -/
theorem sum_scaled {ι : Type} (s : Finset ι) (a b : ι → EReal) (c : ℝ) (hc : 0 ≤ c) :
    ∑ i ∈ s, (a i * (c : EReal)) * b i = (∑ i ∈ s, a i * b i) * (c : EReal) := by
  classical
  refine Finset.induction_on s ?_ ?_
  · simp
  · intro i s hi ih
    rw [Finset.sum_insert hi, Finset.sum_insert hi, ih,
      EReal.right_distrib_of_nonneg_of_ne_top (by exact_mod_cast hc) (EReal.coe_ne_top c), mul_right_comm]

/-- A sum over the 2048 keys is the sum over the first 1024 plus the sum over the last 1024. -/
theorem sum_two_halves (f : Fin 2048 → EReal) :
    ∑ k : Fin 2048, f k
      = (∑ k : Fin 1024, f ⟨0 * 1024 + k.val, by have := k.isLt; omega⟩)
        + ∑ k : Fin 1024, f ⟨1 * 1024 + k.val, by have := k.isLt; omega⟩ := by
  have h := Fin.sum_univ_add (M := EReal) (a := 1024) (b := 1024) f
  refine h.trans ?_
  have e0 : ∀ k : Fin 1024, f (Fin.castAdd 1024 k) = f ⟨0 * 1024 + k.val, by have := k.isLt; omega⟩ :=
    fun k => congrArg f (Fin.ext (by show k.val = 0 * 1024 + k.val; omega))
  have e1 : ∀ k : Fin 1024, f (Fin.natAdd 1024 k) = f ⟨1 * 1024 + k.val, by have := k.isLt; omega⟩ :=
    fun k => congrArg f (Fin.ext (by show 1024 + k.val = 1 * 1024 + k.val; omega))
  rw [Finset.sum_congr rfl fun k _ => e0 k, Finset.sum_congr rfl fun k _ => e1 k]

end Cert.Attn

end
-- ==== Proof.Bridge.lean ====
/-
  The kernel's form of the result, over the folded arrays, is the result.

  Folding batch b and head h into row block 16 b + h is a change of shape that keeps row-major positions, so the folded
  query, key and value arrays at (16 b + h, q, d) are the arrays at (b, h, q, d), and the mask with its unit head axis
  dropped at (b, q, k) is the mask at (b, 0, q, k); row block 16 b + h belongs to batch (16 b + h) / 16 = b. A one-bit mask
  widened to 32 bits is not zero exactly where the bit is set. The scale 1/8 on every query entry comes out of the
  contraction over the features, and the sum over the 2048 keys is the sum over the first 1024 plus the sum over the last
  1024; the accumulator's zero start adds nothing.
-/
import proofs.«178710_j18391049961538_2_alg».proof.Proof.Spec
import proofs.«178710_j18391049961538_2_alg».proof.Proof.Scale
import Idealize.ShloMosaic.Lib.Pipeline.Value
import Idealize.ShloMosaic.Lib.ValueIdx

noncomputable section

open scoped BigOperators

namespace Cert.Attn

open Idealize.ShloMosaic Idealize.ShloMosaic.ValueIdx

/-- The arrays with batch and head folded read, at (16 b + h, q, d), the arrays at (b, h, q, d). -/
theorem fold_apply {α : Type} (x : SQ.Idx → α) (hc : SQ.ShapeCasts SQ3) (b : Fin 4) (h : Fin 16) (q : Fin 2048) (d : Fin 64) :
    shapeCast SQ3 x hc (ix3 (⟨16 * b.val + h.val, by have := b.isLt; have := h.isLt; omega⟩ : Fin 64) q d) = x (ix4 b h q d) :=
  shapeCast_apply x hc _ _ (by
    rw [Shape.rowMajor_val_four, Shape.rowMajor_val_three]
    show ((b.val * 16 + h.val) * 2048 + q.val) * 64 + d.val = ((16 * b.val + h.val) * 2048 + q.val) * 64 + d.val
    omega)

/-- Unfolding the row blocks back into batch and head reads, at (b, h, q, d), the folded array at (16 b + h, q, d). -/
theorem unfold_apply {α : Type} (x : SQ3.Idx → α) (hc : SQ3.ShapeCasts SQ) (b : Fin 4) (h : Fin 16) (q : Fin 2048) (d : Fin 64) :
    shapeCast SQ x hc (ix4 b h q d) = x (ix3 (⟨16 * b.val + h.val, by have := b.isLt; have := h.isLt; omega⟩ : Fin 64) q d) :=
  shapeCast_apply x hc _ _ (by
    rw [Shape.rowMajor_val_four, Shape.rowMajor_val_three]
    show ((16 * b.val + h.val) * 2048 + q.val) * 64 + d.val = ((b.val * 16 + h.val) * 2048 + q.val) * 64 + d.val
    omega)

/-- The mask with its unit head axis dropped reads, at (b, q, k), the mask at (b, 0, q, k). -/
theorem mfold_apply {α : Type} (x : SM.Idx → α) (hc : SM.ShapeCasts SM3) (b : Fin 4) (q k : Fin 2048) :
    shapeCast SM3 x hc (ix3 b q k) = x (ix4 b (0 : Fin 1) q k) :=
  shapeCast_apply x hc _ _ (by
    rw [Shape.rowMajor_val_four, Shape.rowMajor_val_three]
    show ((b.val * 1 + 0) * 2048 + q.val) * 2048 + k.val = (b.val * 2048 + q.val) * 2048 + k.val
    omega)

/-- A mask bit widened to a 32-bit word is different from zero exactly where the bit is set. -/
theorem ne_zero_bit (x : BitVec 1) : IntOp.cmpi .ne (x.setWidth 32) 0#32 = x := by
  rcases BitVec.eq_zero_or_eq_one x with h | h <;> subst h <;> decide

section
variable (Q K V : SQ.Idx → EReal) (M : SM.Idx → BitVec 1) (hq : SQ.ShapeCasts SQ3) (hm : SM.ShapeCasts SM3) (hlt : 1 < 32)

/-- One key tile's contribution over the folded arrays is that tile's part of the sum over the keys. -/
theorem part_eq (b : Fin 4) (h : Fin 16) (q : Fin 2048) (e : Fin 64) (kt : Fin 2) :
    part (shapeCast SQ3 Q hq) (shapeCast SQ3 K hq) (shapeCast SQ3 V hq) (extui 32 (shapeCast SM3 M hm) hlt)
        (⟨16 * b.val + h.val, by have := b.isLt; have := h.isLt; omega⟩ : Fin 64) kt q e
      = ∑ k : Fin 1024, (fun kk : Fin 2048 => score Q K M b h q kk * V (ix4 b h kk e))
          (⟨kt.val * 1024 + k.val, by have := kt.isLt; have := k.isLt; omega⟩ : Fin 2048) := by
  unfold part
  refine Finset.sum_congr rfl fun k _ => ?_
  refine congrArg₂ (fun a c => a * c) ?_ (fold_apply V hq b h _ e)
  unfold kscore score
  have hb : (⟨(16 * b.val + h.val) / 16, by have := b.isLt; have := h.isLt; omega⟩ : Fin 4) = b :=
    Fin.ext (by show (16 * b.val + h.val) / 16 = b.val; have := h.isLt; omega)
  refine congrArg₂ (fun cnd x => Scalar.select cnd fillv x) ?_ ?_
  · show IntOp.cmpi .ne ((shapeCast SM3 M hm (ix3 (⟨(16 * b.val + h.val) / 16, _⟩ : Fin 4) q _)).setWidth 32) 0#32 = _
    rw [hb, mfold_apply]
    exact ne_zero_bit _
  · rw [ofBits_eighth]
    refine (Finset.sum_congr rfl fun dd _ => ?_).trans (sum_scaled Finset.univ _ _ (1 / 8) (by norm_num))
    rw [fold_apply Q hq b h q dd, fold_apply K hq b h _ dd]

/-- The accumulator over the folded arrays is the sum over all the keys. -/
theorem kacc_eq (b : Fin 4) (h : Fin 16) (q : Fin 2048) (e : Fin 64) :
    kacc (shapeCast SQ3 Q hq) (shapeCast SQ3 K hq) (shapeCast SQ3 V hq) (extui 32 (shapeCast SM3 M hm) hlt)
        (⟨16 * b.val + h.val, by have := b.isLt; have := h.isLt; omega⟩ : Fin 64) q e
      = acc Q K V M b h q e := by
  unfold kacc acc
  rw [ofBits_zero, zero_add, part_eq Q K V M hq hm hlt b h q e 0, part_eq Q K V M hq hm hlt b h q e 1]
  exact (sum_two_halves fun kk : Fin 2048 => score Q K M b h q kk * V (ix4 b h kk e)).symm

/-- THE BRIDGE: the kernel's result array over the folded arrays, unfolded back into batch and head, is the result. -/
theorem bridge (hu : SQ3.ShapeCasts SQ) :
    shapeCast SQ (GK (shapeCast SQ3 Q hq) (shapeCast SQ3 K hq) (shapeCast SQ3 V hq) (extui 32 (shapeCast SM3 M hm) hlt)) hu
      = G Q K V M := by
  funext i
  obtain ⟨b, h, q, d, rfl⟩ : ∃ (b : Fin 4) (h : Fin 16) (q : Fin 2048) (d : Fin 64), i = ix4 b h q d :=
    ⟨i 0, i 1, i 2, i 3, eq_ix4 i⟩
  rw [unfold_apply, GK_ix3, G_ix4]
  exact congrArg (fun row => lsm row d) (funext fun e => kacc_eq Q K V M hq hm hlt b h q e)

end

end Cert.Attn

end
-- ==== Proof.KRun.lean ====
/-
  The idealized kernel's run, read: its result is G of the four argument arrays.

  Before the region the host folds batch and head of the query, key and value arrays into one axis, drops the mask's unit
  head axis and widens the mask to 32-bit words; after the region it unfolds the result array's row blocks back into batch
  and head. The region leaves the result array at the kernel's form GK of the folded arrays, so the result buffer ends at
  GK of the folded arguments, unfolded: and that is G of the arguments.
-/
import proofs.«178710_j18391049961538_2_alg».proof.Proof.Gen.KernelIdeal.Frame
import proofs.«178710_j18391049961538_2_alg».proof.Proof.Final
import proofs.«178710_j18391049961538_2_alg».proof.Proof.Bridge
import Idealize.ShloMosaic.Lib.StableHlo.Run
import Idealize.ShloMosaic.Lib.Pipeline.Value

noncomputable section

open Idealize.ShloMosaic Idealize.ShloMosaic.TcCoe Idealize.SL.Sem Idealize.ShloMosaic.StableHlo

namespace Cert.KernelIdeal.KRun

open Cert.KernelIdeal Cert.KernelIdeal.Gen Cert.Attn

variable (m : (ℓ : Loc nD τ sig) → Buf (Elt Ideal) ℓ) (ρ : Dev nD → PrngReg)

/-- The result buffer's contents after the run: the kernel's result array unfolded back into batch and head. -/
abbrev result (c : Dev nD) : Buf (Elt Ideal) ((c.tc : Thread nD τ).loc main_v6) :=
  shapeCast S4x16x2048x64 (Final.GKarr m c) shapeCasts_S64x2048x64_S4x16x2048x64

/-- The host line after the region reads the result array the region left. -/
theorem tail_eq (c : Dev nD) :
    Pipeline.afterTail₀ cfgs (dats m) 0 (V0 m) [hostOps1] c main_v6 = result m c := by
  unfold Pipeline.afterTail₀
  show StableHlo.after hostOps1 _ (Proc.devRef .tc main_v6) = _
  after_results
  refine congrArg (fun x => shapeCast S4x16x2048x64 x shapeCasts_S64x2048x64_S4x16x2048x64) ?_
  exact (Pipeline.withArrays_arr spec0 launch0.win.arr_inj c _ _ 4).trans (Final.final m c)

/-- The run, read: the result buffer at that array, the arguments unchanged. -/
theorem run : θ_run defs (onTc (τ := τ) (main (F := Ideal))) ⟨m, fun _ => 0, ρ⟩ (fun r => ∀ c : Dev nD,
      r.2.mem ((c.tc : Thread nD τ).loc main_v6) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v6 (Pipeline.mem_restRefs_of main_v6 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

/-! ## The arrays the region finds are the host's folds of the arguments -/

theorem V_v0 (c : Dev nD) : (V m c main_v0 : S64x2048x64.Idx → EReal)
    = shapeCast S64x2048x64 (m ((c.tc : Thread nD τ).loc main_arg0)) shapeCasts_S4x16x2048x64_S64x2048x64 := by
  show StableHlo.after hostOps0 (fun b => m (c, b)) (Proc.devRef .tc main_v0) = _
  after_results
  rfl
theorem V_v1 (c : Dev nD) : (V m c main_v1 : S64x2048x64.Idx → EReal)
    = shapeCast S64x2048x64 (m ((c.tc : Thread nD τ).loc main_arg1)) shapeCasts_S4x16x2048x64_S64x2048x64 := by
  show StableHlo.after hostOps0 (fun b => m (c, b)) (Proc.devRef .tc main_v1) = _
  after_results
  rfl
theorem V_v2 (c : Dev nD) : (V m c main_v2 : S64x2048x64.Idx → EReal)
    = shapeCast S64x2048x64 (m ((c.tc : Thread nD τ).loc main_arg2)) shapeCasts_S4x16x2048x64_S64x2048x64 := by
  show StableHlo.after hostOps0 (fun b => m (c, b)) (Proc.devRef .tc main_v2) = _
  after_results
  rfl
theorem V_v4 (c : Dev nD) : (V m c main_v4 : S4x2048x2048.Idx → BitVec 32)
    = extui 32 (shapeCast S4x2048x2048 (m ((c.tc : Thread nD τ).loc main_arg3)) shapeCasts_S4x1x2048x2048_S4x2048x2048) natLt_1_32 := by
  show StableHlo.after hostOps0 (fun b => m (c, b)) (Proc.devRef .tc main_v4) = _
  after_results
  rfl

/-- THE KERNEL'S RESULT is G of the four argument arrays. -/
theorem result_eq_G (c : Dev nD) :
    result m c = G (m ((c.tc : Thread nD τ).loc main_arg0)) (m ((c.tc : Thread nD τ).loc main_arg1)) (m ((c.tc : Thread nD τ).loc main_arg2)) (m ((c.tc : Thread nD τ).loc main_arg3)) := by
  show shapeCast S4x16x2048x64 (GK (V m c main_v0 : S64x2048x64.Idx → EReal) (V m c main_v1 : S64x2048x64.Idx → EReal)
    (V m c main_v2 : S64x2048x64.Idx → EReal) (V m c main_v4 : S4x2048x2048.Idx → BitVec 32)) shapeCasts_S64x2048x64_S4x16x2048x64 = _
  rw [V_v0, V_v1, V_v2, V_v4]
  exact bridge _ _ _ _ shapeCasts_S4x16x2048x64_S64x2048x64 shapeCasts_S4x1x2048x2048_S4x2048x2048 natLt_1_32
    shapeCasts_S64x2048x64_S4x16x2048x64

end Cert.KernelIdeal.KRun

end
-- ==== Proof.RefRun.lean ====
/-
  The reference program's @main as the list of its 25 host operations, and its run read back.

  The two functions @main calls (the masked fill, and the log-softmax over the last axis) are inlined: each of their
  operations acts on the buffers the call names. Such an operation is first spelt over references that carry the tensor
  type of the value they hold, its function moved to the buffer's own type along the equation between the two types; at a
  literal reference that equation is the identity, so each of these operations IS the plain operation at the same buffers
  with the same function, one small equation per operation. With the operations in that plain form, what each result
  buffer holds after the sequence is the operations' composed term of the four argument arrays: every weakly fair
  execution of @main terminates with the result buffer at the log-softmax, over the feature axis, of the contraction
  over the keys of the masked scaled scores with the values, and the argument arrays unchanged.
-/
import proofs.«178710_j18391049961538_2_alg».proof.Proof.Gen.ReferenceIdeal
import Idealize.ShloMosaic.Lib.StableHlo.Run

noncomputable section

namespace Cert.ReferenceIdeal.ValueP

open Cert.ReferenceIdeal Cert.ReferenceIdeal.Gen Idealize.ShloMosaic Idealize.ShloMosaic.TcCoe Idealize.SL.Sem Idealize.ShloMosaic.StableHlo

variable {F : FTy → Type} [FloatOps F]

/-- @main's 25 operations in order, a called function's operations in its call's place, spelt over typed references. -/
abbrev opsT : List (HloOp τ sig (Elt F)) :=
  [ binary main_arg0 main_arg1 main_v0 ((fun l r => Host.dotGeneral dot_S4x16x2048x64_S4x16x2048x64_S4x16x2048x2048_3_3_2_2_01_01 none l r) : (⟨S4x16x2048x64, .f32⟩ : BufTy).Contents (Elt F) → (⟨S4x16x2048x64, .f32⟩ : BufTy).Contents (Elt F) → (⟨S4x16x2048x2048, .f32⟩ : BufTy).Contents (Elt F)),
    nullary main_cst (constant S_ .f32 0x42800000#32),
    unary main_cst main_v1 (Host.sqrt : (⟨S_, .f32⟩ : BufTy).Contents (Elt F) → (⟨S_, .f32⟩ : BufTy).Contents (Elt F)),
    unary main_v1 main_v2 (broadcastInDim S4x16x2048x2048 ![] bcast_S_S4x16x2048x2048 : (⟨S_, .f32⟩ : BufTy).Contents (Elt F) → (⟨S4x16x2048x2048, .f32⟩ : BufTy).Contents (Elt F)),
    binary main_v0 main_v2 main_v3 (Host.divf : (⟨S4x16x2048x2048, .f32⟩ : BufTy).Contents (Elt F) → (⟨S4x16x2048x2048, .f32⟩ : BufTy).Contents (Elt F) → (⟨S4x16x2048x2048, .f32⟩ : BufTy).Contents (Elt F)),
    nullary main_cst_0 (constant S_ .f32 0xCE6E6B28#32),
    TRef.unary (TRef.of (T := ⟨S4x1x2048x2048, .i1⟩) main_arg3) (TRef.of (T := ⟨S4x16x2048x2048, .i1⟩) main_call0_v0) (broadcastInDim S4x16x2048x2048 ![0, 1, 2, 3] bcast_S4x1x2048x2048_S4x16x2048x2048_0_1_2_3),
    TRef.unary (TRef.of (T := ⟨S_, .f32⟩) main_cst_0) (TRef.of (T := ⟨S4x16x2048x2048, .f32⟩) main_call0_v1) (broadcastInDim S4x16x2048x2048 ![] bcast_S_S4x16x2048x2048),
    TRef.ternary (TRef.of (T := ⟨S4x16x2048x2048, .i1⟩) main_call0_v0) (TRef.of (T := ⟨S4x16x2048x2048, .f32⟩) main_call0_v1) (TRef.of (T := ⟨S4x16x2048x2048, .f32⟩) main_v3) (TRef.of (T := ⟨S4x16x2048x2048, .f32⟩) main_v4) select,
    binary main_v4 main_arg2 main_v5 ((fun l r => Host.dotGeneral dot_S4x16x2048x2048_S4x16x2048x64_S4x16x2048x64_3_2_2_3_01_01 none l r) : (⟨S4x16x2048x2048, .f32⟩ : BufTy).Contents (Elt F) → (⟨S4x16x2048x64, .f32⟩ : BufTy).Contents (Elt F) → (⟨S4x16x2048x64, .f32⟩ : BufTy).Contents (Elt F)),
    TRef.nullary (TRef.of (T := ⟨S_, .f32⟩) main_call1_cst) (constant S_ .f32 0xFF800000#32),
    TRef.binary (TRef.of (T := ⟨S4x16x2048x64, .f32⟩) main_v5) (TRef.of (T := ⟨S_, .f32⟩) main_call1_cst) (TRef.of (T := ⟨S4x16x2048, .f32⟩) main_call1_v0) (fun x v => Host.reduce FloatOps.maximumf x v reducesTo_S4x16x2048x64_S4x16x2048_d3 h_S_),
    TRef.nullary (TRef.of (T := ⟨S_, .f32⟩) main_call1_cst_0) (constant S_ .f32 0xFF800000#32),
    TRef.unary (TRef.of (T := ⟨S_, .f32⟩) main_call1_cst_0) (TRef.of (T := ⟨S4x16x2048, .f32⟩) main_call1_v1) (broadcastInDim S4x16x2048 ![] bcast_S_S4x16x2048),
    TRef.binary (TRef.of (T := ⟨S4x16x2048, .f32⟩) main_call1_v1) (TRef.of (T := ⟨S4x16x2048, .f32⟩) main_call1_v0) (TRef.of (T := ⟨S4x16x2048, .f32⟩) main_call1_v2) maximumf,
    TRef.unary (TRef.of (T := ⟨S4x16x2048, .f32⟩) main_call1_v2) (TRef.of (T := ⟨S4x16x2048x1, .f32⟩) main_call1_v3) (broadcastInDim S4x16x2048x1 ![0, 1, 2] bcast_S4x16x2048_S4x16x2048x1_0_1_2),
    TRef.unary (TRef.of (T := ⟨S4x16x2048x1, .f32⟩) main_call1_v3) (TRef.of (T := ⟨S4x16x2048x64, .f32⟩) main_call1_v4) (broadcastInDim S4x16x2048x64 ![0, 1, 2, 3] bcast_S4x16x2048x1_S4x16x2048x64_0_1_2_3),
    TRef.binary (TRef.of (T := ⟨S4x16x2048x64, .f32⟩) main_v5) (TRef.of (T := ⟨S4x16x2048x64, .f32⟩) main_call1_v4) (TRef.of (T := ⟨S4x16x2048x64, .f32⟩) main_call1_v5) subf,
    TRef.unary (TRef.of (T := ⟨S4x16x2048x64, .f32⟩) main_call1_v5) (TRef.of (T := ⟨S4x16x2048x64, .f32⟩) main_call1_v6) Host.exp,
    TRef.nullary (TRef.of (T := ⟨S_, .f32⟩) main_call1_cst_1) (constant S_ .f32 0x00000000#32),
    TRef.binary (TRef.of (T := ⟨S4x16x2048x64, .f32⟩) main_call1_v6) (TRef.of (T := ⟨S_, .f32⟩) main_call1_cst_1) (TRef.of (T := ⟨S4x16x2048, .f32⟩) main_call1_v7) (fun x v => Host.reduceAdd x v reducesTo_S4x16x2048x64_S4x16x2048_d3 h_S_),
    TRef.unary (TRef.of (T := ⟨S4x16x2048, .f32⟩) main_call1_v7) (TRef.of (T := ⟨S4x16x2048x1, .f32⟩) main_call1_v8) (broadcastInDim S4x16x2048x1 ![0, 1, 2] bcast_S4x16x2048_S4x16x2048x1_0_1_2),
    TRef.unary (TRef.of (T := ⟨S4x16x2048x1, .f32⟩) main_call1_v8) (TRef.of (T := ⟨S4x16x2048x1, .f32⟩) main_call1_v9) Host.log,
    TRef.unary (TRef.of (T := ⟨S4x16x2048x1, .f32⟩) main_call1_v9) (TRef.of (T := ⟨S4x16x2048x64, .f32⟩) main_call1_v10) (broadcastInDim S4x16x2048x64 ![0, 1, 2, 3] bcast_S4x16x2048x1_S4x16x2048x64_0_1_2_3),
    TRef.binary (TRef.of (T := ⟨S4x16x2048x64, .f32⟩) main_call1_v5) (TRef.of (T := ⟨S4x16x2048x64, .f32⟩) main_call1_v10) (TRef.of (T := ⟨S4x16x2048x64, .f32⟩) main_v6) subf ]

/-- @main is the sequence of those operations. -/
theorem mainT_eq (c : Dev nD) : main (F := F) c = seq opsT := rfl

/-! Each inlined operation over typed references is the plain operation at the same buffers with the same function. -/
theorem op6_gen (f : (⟨S4x1x2048x2048, .i1⟩ : BufTy).Contents (Elt F) → (⟨S4x16x2048x2048, .i1⟩ : BufTy).Contents (Elt F)) : (TRef.unary (TRef.of (T := ⟨S4x1x2048x2048, .i1⟩) main_arg3) (TRef.of (T := ⟨S4x16x2048x2048, .i1⟩) main_call0_v0) f : HloOp τ sig (Elt F)) = unary main_arg3 main_call0_v0 f := rfl
theorem op6_eq : (TRef.unary (TRef.of (T := ⟨S4x1x2048x2048, .i1⟩) main_arg3) (TRef.of (T := ⟨S4x16x2048x2048, .i1⟩) main_call0_v0) (broadcastInDim S4x16x2048x2048 ![0, 1, 2, 3] bcast_S4x1x2048x2048_S4x16x2048x2048_0_1_2_3) : HloOp τ sig (Elt F)) = unary main_arg3 main_call0_v0 ((broadcastInDim S4x16x2048x2048 ![0, 1, 2, 3] bcast_S4x1x2048x2048_S4x16x2048x2048_0_1_2_3) : (⟨S4x1x2048x2048, .i1⟩ : BufTy).Contents (Elt F) → (⟨S4x16x2048x2048, .i1⟩ : BufTy).Contents (Elt F)) := op6_gen _
theorem op7_gen (f : (⟨S_, .f32⟩ : BufTy).Contents (Elt F) → (⟨S4x16x2048x2048, .f32⟩ : BufTy).Contents (Elt F)) : (TRef.unary (TRef.of (T := ⟨S_, .f32⟩) main_cst_0) (TRef.of (T := ⟨S4x16x2048x2048, .f32⟩) main_call0_v1) f : HloOp τ sig (Elt F)) = unary main_cst_0 main_call0_v1 f := rfl
theorem op7_eq : (TRef.unary (TRef.of (T := ⟨S_, .f32⟩) main_cst_0) (TRef.of (T := ⟨S4x16x2048x2048, .f32⟩) main_call0_v1) (broadcastInDim S4x16x2048x2048 ![] bcast_S_S4x16x2048x2048) : HloOp τ sig (Elt F)) = unary main_cst_0 main_call0_v1 ((broadcastInDim S4x16x2048x2048 ![] bcast_S_S4x16x2048x2048) : (⟨S_, .f32⟩ : BufTy).Contents (Elt F) → (⟨S4x16x2048x2048, .f32⟩ : BufTy).Contents (Elt F)) := op7_gen _
theorem op8_gen (f : (⟨S4x16x2048x2048, .i1⟩ : BufTy).Contents (Elt F) → (⟨S4x16x2048x2048, .f32⟩ : BufTy).Contents (Elt F) → (⟨S4x16x2048x2048, .f32⟩ : BufTy).Contents (Elt F) → (⟨S4x16x2048x2048, .f32⟩ : BufTy).Contents (Elt F)) : (TRef.ternary (TRef.of (T := ⟨S4x16x2048x2048, .i1⟩) main_call0_v0) (TRef.of (T := ⟨S4x16x2048x2048, .f32⟩) main_call0_v1) (TRef.of (T := ⟨S4x16x2048x2048, .f32⟩) main_v3) (TRef.of (T := ⟨S4x16x2048x2048, .f32⟩) main_v4) f : HloOp τ sig (Elt F)) = ternary main_call0_v0 main_call0_v1 main_v3 main_v4 f := rfl
theorem op8_eq : (TRef.ternary (TRef.of (T := ⟨S4x16x2048x2048, .i1⟩) main_call0_v0) (TRef.of (T := ⟨S4x16x2048x2048, .f32⟩) main_call0_v1) (TRef.of (T := ⟨S4x16x2048x2048, .f32⟩) main_v3) (TRef.of (T := ⟨S4x16x2048x2048, .f32⟩) main_v4) select : HloOp τ sig (Elt F)) = ternary main_call0_v0 main_call0_v1 main_v3 main_v4 ((select) : (⟨S4x16x2048x2048, .i1⟩ : BufTy).Contents (Elt F) → (⟨S4x16x2048x2048, .f32⟩ : BufTy).Contents (Elt F) → (⟨S4x16x2048x2048, .f32⟩ : BufTy).Contents (Elt F) → (⟨S4x16x2048x2048, .f32⟩ : BufTy).Contents (Elt F)) := op8_gen _
theorem op10_gen (v : (⟨S_, .f32⟩ : BufTy).Contents (Elt F)) : (TRef.nullary (TRef.of (T := ⟨S_, .f32⟩) main_call1_cst) v : HloOp τ sig (Elt F)) = nullary main_call1_cst v := rfl
theorem op10_eq : (TRef.nullary (TRef.of (T := ⟨S_, .f32⟩) main_call1_cst) (constant S_ .f32 0xFF800000#32) : HloOp τ sig (Elt F)) = nullary main_call1_cst (((constant S_ .f32 0xFF800000#32)) : (⟨S_, .f32⟩ : BufTy).Contents (Elt F)) := op10_gen _
theorem op11_gen (f : (⟨S4x16x2048x64, .f32⟩ : BufTy).Contents (Elt F) → (⟨S_, .f32⟩ : BufTy).Contents (Elt F) → (⟨S4x16x2048, .f32⟩ : BufTy).Contents (Elt F)) : (TRef.binary (TRef.of (T := ⟨S4x16x2048x64, .f32⟩) main_v5) (TRef.of (T := ⟨S_, .f32⟩) main_call1_cst) (TRef.of (T := ⟨S4x16x2048, .f32⟩) main_call1_v0) f : HloOp τ sig (Elt F)) = binary main_v5 main_call1_cst main_call1_v0 f := rfl
theorem op11_eq : (TRef.binary (TRef.of (T := ⟨S4x16x2048x64, .f32⟩) main_v5) (TRef.of (T := ⟨S_, .f32⟩) main_call1_cst) (TRef.of (T := ⟨S4x16x2048, .f32⟩) main_call1_v0) (fun x v => Host.reduce FloatOps.maximumf x v reducesTo_S4x16x2048x64_S4x16x2048_d3 h_S_) : HloOp τ sig (Elt F)) = binary main_v5 main_call1_cst main_call1_v0 (((fun x v => Host.reduce FloatOps.maximumf x v reducesTo_S4x16x2048x64_S4x16x2048_d3 h_S_)) : (⟨S4x16x2048x64, .f32⟩ : BufTy).Contents (Elt F) → (⟨S_, .f32⟩ : BufTy).Contents (Elt F) → (⟨S4x16x2048, .f32⟩ : BufTy).Contents (Elt F)) := op11_gen _
theorem op12_gen (v : (⟨S_, .f32⟩ : BufTy).Contents (Elt F)) : (TRef.nullary (TRef.of (T := ⟨S_, .f32⟩) main_call1_cst_0) v : HloOp τ sig (Elt F)) = nullary main_call1_cst_0 v := rfl
theorem op12_eq : (TRef.nullary (TRef.of (T := ⟨S_, .f32⟩) main_call1_cst_0) (constant S_ .f32 0xFF800000#32) : HloOp τ sig (Elt F)) = nullary main_call1_cst_0 (((constant S_ .f32 0xFF800000#32)) : (⟨S_, .f32⟩ : BufTy).Contents (Elt F)) := op12_gen _
theorem op13_gen (f : (⟨S_, .f32⟩ : BufTy).Contents (Elt F) → (⟨S4x16x2048, .f32⟩ : BufTy).Contents (Elt F)) : (TRef.unary (TRef.of (T := ⟨S_, .f32⟩) main_call1_cst_0) (TRef.of (T := ⟨S4x16x2048, .f32⟩) main_call1_v1) f : HloOp τ sig (Elt F)) = unary main_call1_cst_0 main_call1_v1 f := rfl
theorem op13_eq : (TRef.unary (TRef.of (T := ⟨S_, .f32⟩) main_call1_cst_0) (TRef.of (T := ⟨S4x16x2048, .f32⟩) main_call1_v1) (broadcastInDim S4x16x2048 ![] bcast_S_S4x16x2048) : HloOp τ sig (Elt F)) = unary main_call1_cst_0 main_call1_v1 ((broadcastInDim S4x16x2048 ![] bcast_S_S4x16x2048) : (⟨S_, .f32⟩ : BufTy).Contents (Elt F) → (⟨S4x16x2048, .f32⟩ : BufTy).Contents (Elt F)) := op13_gen _
theorem op14_gen (f : (⟨S4x16x2048, .f32⟩ : BufTy).Contents (Elt F) → (⟨S4x16x2048, .f32⟩ : BufTy).Contents (Elt F) → (⟨S4x16x2048, .f32⟩ : BufTy).Contents (Elt F)) : (TRef.binary (TRef.of (T := ⟨S4x16x2048, .f32⟩) main_call1_v1) (TRef.of (T := ⟨S4x16x2048, .f32⟩) main_call1_v0) (TRef.of (T := ⟨S4x16x2048, .f32⟩) main_call1_v2) f : HloOp τ sig (Elt F)) = binary main_call1_v1 main_call1_v0 main_call1_v2 f := rfl
theorem op14_eq : (TRef.binary (TRef.of (T := ⟨S4x16x2048, .f32⟩) main_call1_v1) (TRef.of (T := ⟨S4x16x2048, .f32⟩) main_call1_v0) (TRef.of (T := ⟨S4x16x2048, .f32⟩) main_call1_v2) maximumf : HloOp τ sig (Elt F)) = binary main_call1_v1 main_call1_v0 main_call1_v2 ((maximumf) : (⟨S4x16x2048, .f32⟩ : BufTy).Contents (Elt F) → (⟨S4x16x2048, .f32⟩ : BufTy).Contents (Elt F) → (⟨S4x16x2048, .f32⟩ : BufTy).Contents (Elt F)) := op14_gen _
theorem op15_gen (f : (⟨S4x16x2048, .f32⟩ : BufTy).Contents (Elt F) → (⟨S4x16x2048x1, .f32⟩ : BufTy).Contents (Elt F)) : (TRef.unary (TRef.of (T := ⟨S4x16x2048, .f32⟩) main_call1_v2) (TRef.of (T := ⟨S4x16x2048x1, .f32⟩) main_call1_v3) f : HloOp τ sig (Elt F)) = unary main_call1_v2 main_call1_v3 f := rfl
theorem op15_eq : (TRef.unary (TRef.of (T := ⟨S4x16x2048, .f32⟩) main_call1_v2) (TRef.of (T := ⟨S4x16x2048x1, .f32⟩) main_call1_v3) (broadcastInDim S4x16x2048x1 ![0, 1, 2] bcast_S4x16x2048_S4x16x2048x1_0_1_2) : HloOp τ sig (Elt F)) = unary main_call1_v2 main_call1_v3 ((broadcastInDim S4x16x2048x1 ![0, 1, 2] bcast_S4x16x2048_S4x16x2048x1_0_1_2) : (⟨S4x16x2048, .f32⟩ : BufTy).Contents (Elt F) → (⟨S4x16x2048x1, .f32⟩ : BufTy).Contents (Elt F)) := op15_gen _
theorem op16_gen (f : (⟨S4x16x2048x1, .f32⟩ : BufTy).Contents (Elt F) → (⟨S4x16x2048x64, .f32⟩ : BufTy).Contents (Elt F)) : (TRef.unary (TRef.of (T := ⟨S4x16x2048x1, .f32⟩) main_call1_v3) (TRef.of (T := ⟨S4x16x2048x64, .f32⟩) main_call1_v4) f : HloOp τ sig (Elt F)) = unary main_call1_v3 main_call1_v4 f := rfl
theorem op16_eq : (TRef.unary (TRef.of (T := ⟨S4x16x2048x1, .f32⟩) main_call1_v3) (TRef.of (T := ⟨S4x16x2048x64, .f32⟩) main_call1_v4) (broadcastInDim S4x16x2048x64 ![0, 1, 2, 3] bcast_S4x16x2048x1_S4x16x2048x64_0_1_2_3) : HloOp τ sig (Elt F)) = unary main_call1_v3 main_call1_v4 ((broadcastInDim S4x16x2048x64 ![0, 1, 2, 3] bcast_S4x16x2048x1_S4x16x2048x64_0_1_2_3) : (⟨S4x16x2048x1, .f32⟩ : BufTy).Contents (Elt F) → (⟨S4x16x2048x64, .f32⟩ : BufTy).Contents (Elt F)) := op16_gen _
theorem op17_gen (f : (⟨S4x16x2048x64, .f32⟩ : BufTy).Contents (Elt F) → (⟨S4x16x2048x64, .f32⟩ : BufTy).Contents (Elt F) → (⟨S4x16x2048x64, .f32⟩ : BufTy).Contents (Elt F)) : (TRef.binary (TRef.of (T := ⟨S4x16x2048x64, .f32⟩) main_v5) (TRef.of (T := ⟨S4x16x2048x64, .f32⟩) main_call1_v4) (TRef.of (T := ⟨S4x16x2048x64, .f32⟩) main_call1_v5) f : HloOp τ sig (Elt F)) = binary main_v5 main_call1_v4 main_call1_v5 f := rfl
theorem op17_eq : (TRef.binary (TRef.of (T := ⟨S4x16x2048x64, .f32⟩) main_v5) (TRef.of (T := ⟨S4x16x2048x64, .f32⟩) main_call1_v4) (TRef.of (T := ⟨S4x16x2048x64, .f32⟩) main_call1_v5) subf : HloOp τ sig (Elt F)) = binary main_v5 main_call1_v4 main_call1_v5 ((subf) : (⟨S4x16x2048x64, .f32⟩ : BufTy).Contents (Elt F) → (⟨S4x16x2048x64, .f32⟩ : BufTy).Contents (Elt F) → (⟨S4x16x2048x64, .f32⟩ : BufTy).Contents (Elt F)) := op17_gen _
theorem op18_gen (f : (⟨S4x16x2048x64, .f32⟩ : BufTy).Contents (Elt F) → (⟨S4x16x2048x64, .f32⟩ : BufTy).Contents (Elt F)) : (TRef.unary (TRef.of (T := ⟨S4x16x2048x64, .f32⟩) main_call1_v5) (TRef.of (T := ⟨S4x16x2048x64, .f32⟩) main_call1_v6) f : HloOp τ sig (Elt F)) = unary main_call1_v5 main_call1_v6 f := rfl
theorem op18_eq : (TRef.unary (TRef.of (T := ⟨S4x16x2048x64, .f32⟩) main_call1_v5) (TRef.of (T := ⟨S4x16x2048x64, .f32⟩) main_call1_v6) Host.exp : HloOp τ sig (Elt F)) = unary main_call1_v5 main_call1_v6 ((Host.exp) : (⟨S4x16x2048x64, .f32⟩ : BufTy).Contents (Elt F) → (⟨S4x16x2048x64, .f32⟩ : BufTy).Contents (Elt F)) := op18_gen _
theorem op19_gen (v : (⟨S_, .f32⟩ : BufTy).Contents (Elt F)) : (TRef.nullary (TRef.of (T := ⟨S_, .f32⟩) main_call1_cst_1) v : HloOp τ sig (Elt F)) = nullary main_call1_cst_1 v := rfl
theorem op19_eq : (TRef.nullary (TRef.of (T := ⟨S_, .f32⟩) main_call1_cst_1) (constant S_ .f32 0x00000000#32) : HloOp τ sig (Elt F)) = nullary main_call1_cst_1 (((constant S_ .f32 0x00000000#32)) : (⟨S_, .f32⟩ : BufTy).Contents (Elt F)) := op19_gen _
theorem op20_gen (f : (⟨S4x16x2048x64, .f32⟩ : BufTy).Contents (Elt F) → (⟨S_, .f32⟩ : BufTy).Contents (Elt F) → (⟨S4x16x2048, .f32⟩ : BufTy).Contents (Elt F)) : (TRef.binary (TRef.of (T := ⟨S4x16x2048x64, .f32⟩) main_call1_v6) (TRef.of (T := ⟨S_, .f32⟩) main_call1_cst_1) (TRef.of (T := ⟨S4x16x2048, .f32⟩) main_call1_v7) f : HloOp τ sig (Elt F)) = binary main_call1_v6 main_call1_cst_1 main_call1_v7 f := rfl
theorem op20_eq : (TRef.binary (TRef.of (T := ⟨S4x16x2048x64, .f32⟩) main_call1_v6) (TRef.of (T := ⟨S_, .f32⟩) main_call1_cst_1) (TRef.of (T := ⟨S4x16x2048, .f32⟩) main_call1_v7) (fun x v => Host.reduceAdd x v reducesTo_S4x16x2048x64_S4x16x2048_d3 h_S_) : HloOp τ sig (Elt F)) = binary main_call1_v6 main_call1_cst_1 main_call1_v7 (((fun x v => Host.reduceAdd x v reducesTo_S4x16x2048x64_S4x16x2048_d3 h_S_)) : (⟨S4x16x2048x64, .f32⟩ : BufTy).Contents (Elt F) → (⟨S_, .f32⟩ : BufTy).Contents (Elt F) → (⟨S4x16x2048, .f32⟩ : BufTy).Contents (Elt F)) := op20_gen _
theorem op21_gen (f : (⟨S4x16x2048, .f32⟩ : BufTy).Contents (Elt F) → (⟨S4x16x2048x1, .f32⟩ : BufTy).Contents (Elt F)) : (TRef.unary (TRef.of (T := ⟨S4x16x2048, .f32⟩) main_call1_v7) (TRef.of (T := ⟨S4x16x2048x1, .f32⟩) main_call1_v8) f : HloOp τ sig (Elt F)) = unary main_call1_v7 main_call1_v8 f := rfl
theorem op21_eq : (TRef.unary (TRef.of (T := ⟨S4x16x2048, .f32⟩) main_call1_v7) (TRef.of (T := ⟨S4x16x2048x1, .f32⟩) main_call1_v8) (broadcastInDim S4x16x2048x1 ![0, 1, 2] bcast_S4x16x2048_S4x16x2048x1_0_1_2) : HloOp τ sig (Elt F)) = unary main_call1_v7 main_call1_v8 ((broadcastInDim S4x16x2048x1 ![0, 1, 2] bcast_S4x16x2048_S4x16x2048x1_0_1_2) : (⟨S4x16x2048, .f32⟩ : BufTy).Contents (Elt F) → (⟨S4x16x2048x1, .f32⟩ : BufTy).Contents (Elt F)) := op21_gen _
theorem op22_gen (f : (⟨S4x16x2048x1, .f32⟩ : BufTy).Contents (Elt F) → (⟨S4x16x2048x1, .f32⟩ : BufTy).Contents (Elt F)) : (TRef.unary (TRef.of (T := ⟨S4x16x2048x1, .f32⟩) main_call1_v8) (TRef.of (T := ⟨S4x16x2048x1, .f32⟩) main_call1_v9) f : HloOp τ sig (Elt F)) = unary main_call1_v8 main_call1_v9 f := rfl
theorem op22_eq : (TRef.unary (TRef.of (T := ⟨S4x16x2048x1, .f32⟩) main_call1_v8) (TRef.of (T := ⟨S4x16x2048x1, .f32⟩) main_call1_v9) Host.log : HloOp τ sig (Elt F)) = unary main_call1_v8 main_call1_v9 ((Host.log) : (⟨S4x16x2048x1, .f32⟩ : BufTy).Contents (Elt F) → (⟨S4x16x2048x1, .f32⟩ : BufTy).Contents (Elt F)) := op22_gen _
theorem op23_gen (f : (⟨S4x16x2048x1, .f32⟩ : BufTy).Contents (Elt F) → (⟨S4x16x2048x64, .f32⟩ : BufTy).Contents (Elt F)) : (TRef.unary (TRef.of (T := ⟨S4x16x2048x1, .f32⟩) main_call1_v9) (TRef.of (T := ⟨S4x16x2048x64, .f32⟩) main_call1_v10) f : HloOp τ sig (Elt F)) = unary main_call1_v9 main_call1_v10 f := rfl
theorem op23_eq : (TRef.unary (TRef.of (T := ⟨S4x16x2048x1, .f32⟩) main_call1_v9) (TRef.of (T := ⟨S4x16x2048x64, .f32⟩) main_call1_v10) (broadcastInDim S4x16x2048x64 ![0, 1, 2, 3] bcast_S4x16x2048x1_S4x16x2048x64_0_1_2_3) : HloOp τ sig (Elt F)) = unary main_call1_v9 main_call1_v10 ((broadcastInDim S4x16x2048x64 ![0, 1, 2, 3] bcast_S4x16x2048x1_S4x16x2048x64_0_1_2_3) : (⟨S4x16x2048x1, .f32⟩ : BufTy).Contents (Elt F) → (⟨S4x16x2048x64, .f32⟩ : BufTy).Contents (Elt F)) := op23_gen _
theorem op24_gen (f : (⟨S4x16x2048x64, .f32⟩ : BufTy).Contents (Elt F) → (⟨S4x16x2048x64, .f32⟩ : BufTy).Contents (Elt F) → (⟨S4x16x2048x64, .f32⟩ : BufTy).Contents (Elt F)) : (TRef.binary (TRef.of (T := ⟨S4x16x2048x64, .f32⟩) main_call1_v5) (TRef.of (T := ⟨S4x16x2048x64, .f32⟩) main_call1_v10) (TRef.of (T := ⟨S4x16x2048x64, .f32⟩) main_v6) f : HloOp τ sig (Elt F)) = binary main_call1_v5 main_call1_v10 main_v6 f := rfl
theorem op24_eq : (TRef.binary (TRef.of (T := ⟨S4x16x2048x64, .f32⟩) main_call1_v5) (TRef.of (T := ⟨S4x16x2048x64, .f32⟩) main_call1_v10) (TRef.of (T := ⟨S4x16x2048x64, .f32⟩) main_v6) subf : HloOp τ sig (Elt F)) = binary main_call1_v5 main_call1_v10 main_v6 ((subf) : (⟨S4x16x2048x64, .f32⟩ : BufTy).Contents (Elt F) → (⟨S4x16x2048x64, .f32⟩ : BufTy).Contents (Elt F) → (⟨S4x16x2048x64, .f32⟩ : BufTy).Contents (Elt F)) := op24_gen _

/-- The same 25 operations, every one in plain form. -/
abbrev ops : List (HloOp τ sig (Elt F)) :=
  [ binary main_arg0 main_arg1 main_v0 ((fun l r => Host.dotGeneral dot_S4x16x2048x64_S4x16x2048x64_S4x16x2048x2048_3_3_2_2_01_01 none l r) : (⟨S4x16x2048x64, .f32⟩ : BufTy).Contents (Elt F) → (⟨S4x16x2048x64, .f32⟩ : BufTy).Contents (Elt F) → (⟨S4x16x2048x2048, .f32⟩ : BufTy).Contents (Elt F)),
    nullary main_cst (constant S_ .f32 0x42800000#32),
    unary main_cst main_v1 (Host.sqrt : (⟨S_, .f32⟩ : BufTy).Contents (Elt F) → (⟨S_, .f32⟩ : BufTy).Contents (Elt F)),
    unary main_v1 main_v2 (broadcastInDim S4x16x2048x2048 ![] bcast_S_S4x16x2048x2048 : (⟨S_, .f32⟩ : BufTy).Contents (Elt F) → (⟨S4x16x2048x2048, .f32⟩ : BufTy).Contents (Elt F)),
    binary main_v0 main_v2 main_v3 (Host.divf : (⟨S4x16x2048x2048, .f32⟩ : BufTy).Contents (Elt F) → (⟨S4x16x2048x2048, .f32⟩ : BufTy).Contents (Elt F) → (⟨S4x16x2048x2048, .f32⟩ : BufTy).Contents (Elt F)),
    nullary main_cst_0 (constant S_ .f32 0xCE6E6B28#32),
    unary main_arg3 main_call0_v0 ((broadcastInDim S4x16x2048x2048 ![0, 1, 2, 3] bcast_S4x1x2048x2048_S4x16x2048x2048_0_1_2_3) : (⟨S4x1x2048x2048, .i1⟩ : BufTy).Contents (Elt F) → (⟨S4x16x2048x2048, .i1⟩ : BufTy).Contents (Elt F)),
    unary main_cst_0 main_call0_v1 ((broadcastInDim S4x16x2048x2048 ![] bcast_S_S4x16x2048x2048) : (⟨S_, .f32⟩ : BufTy).Contents (Elt F) → (⟨S4x16x2048x2048, .f32⟩ : BufTy).Contents (Elt F)),
    ternary main_call0_v0 main_call0_v1 main_v3 main_v4 ((select) : (⟨S4x16x2048x2048, .i1⟩ : BufTy).Contents (Elt F) → (⟨S4x16x2048x2048, .f32⟩ : BufTy).Contents (Elt F) → (⟨S4x16x2048x2048, .f32⟩ : BufTy).Contents (Elt F) → (⟨S4x16x2048x2048, .f32⟩ : BufTy).Contents (Elt F)),
    binary main_v4 main_arg2 main_v5 ((fun l r => Host.dotGeneral dot_S4x16x2048x2048_S4x16x2048x64_S4x16x2048x64_3_2_2_3_01_01 none l r) : (⟨S4x16x2048x2048, .f32⟩ : BufTy).Contents (Elt F) → (⟨S4x16x2048x64, .f32⟩ : BufTy).Contents (Elt F) → (⟨S4x16x2048x64, .f32⟩ : BufTy).Contents (Elt F)),
    nullary main_call1_cst (((constant S_ .f32 0xFF800000#32)) : (⟨S_, .f32⟩ : BufTy).Contents (Elt F)),
    binary main_v5 main_call1_cst main_call1_v0 (((fun x v => Host.reduce FloatOps.maximumf x v reducesTo_S4x16x2048x64_S4x16x2048_d3 h_S_)) : (⟨S4x16x2048x64, .f32⟩ : BufTy).Contents (Elt F) → (⟨S_, .f32⟩ : BufTy).Contents (Elt F) → (⟨S4x16x2048, .f32⟩ : BufTy).Contents (Elt F)),
    nullary main_call1_cst_0 (((constant S_ .f32 0xFF800000#32)) : (⟨S_, .f32⟩ : BufTy).Contents (Elt F)),
    unary main_call1_cst_0 main_call1_v1 ((broadcastInDim S4x16x2048 ![] bcast_S_S4x16x2048) : (⟨S_, .f32⟩ : BufTy).Contents (Elt F) → (⟨S4x16x2048, .f32⟩ : BufTy).Contents (Elt F)),
    binary main_call1_v1 main_call1_v0 main_call1_v2 ((maximumf) : (⟨S4x16x2048, .f32⟩ : BufTy).Contents (Elt F) → (⟨S4x16x2048, .f32⟩ : BufTy).Contents (Elt F) → (⟨S4x16x2048, .f32⟩ : BufTy).Contents (Elt F)),
    unary main_call1_v2 main_call1_v3 ((broadcastInDim S4x16x2048x1 ![0, 1, 2] bcast_S4x16x2048_S4x16x2048x1_0_1_2) : (⟨S4x16x2048, .f32⟩ : BufTy).Contents (Elt F) → (⟨S4x16x2048x1, .f32⟩ : BufTy).Contents (Elt F)),
    unary main_call1_v3 main_call1_v4 ((broadcastInDim S4x16x2048x64 ![0, 1, 2, 3] bcast_S4x16x2048x1_S4x16x2048x64_0_1_2_3) : (⟨S4x16x2048x1, .f32⟩ : BufTy).Contents (Elt F) → (⟨S4x16x2048x64, .f32⟩ : BufTy).Contents (Elt F)),
    binary main_v5 main_call1_v4 main_call1_v5 ((subf) : (⟨S4x16x2048x64, .f32⟩ : BufTy).Contents (Elt F) → (⟨S4x16x2048x64, .f32⟩ : BufTy).Contents (Elt F) → (⟨S4x16x2048x64, .f32⟩ : BufTy).Contents (Elt F)),
    unary main_call1_v5 main_call1_v6 ((Host.exp) : (⟨S4x16x2048x64, .f32⟩ : BufTy).Contents (Elt F) → (⟨S4x16x2048x64, .f32⟩ : BufTy).Contents (Elt F)),
    nullary main_call1_cst_1 (((constant S_ .f32 0x00000000#32)) : (⟨S_, .f32⟩ : BufTy).Contents (Elt F)),
    binary main_call1_v6 main_call1_cst_1 main_call1_v7 (((fun x v => Host.reduceAdd x v reducesTo_S4x16x2048x64_S4x16x2048_d3 h_S_)) : (⟨S4x16x2048x64, .f32⟩ : BufTy).Contents (Elt F) → (⟨S_, .f32⟩ : BufTy).Contents (Elt F) → (⟨S4x16x2048, .f32⟩ : BufTy).Contents (Elt F)),
    unary main_call1_v7 main_call1_v8 ((broadcastInDim S4x16x2048x1 ![0, 1, 2] bcast_S4x16x2048_S4x16x2048x1_0_1_2) : (⟨S4x16x2048, .f32⟩ : BufTy).Contents (Elt F) → (⟨S4x16x2048x1, .f32⟩ : BufTy).Contents (Elt F)),
    unary main_call1_v8 main_call1_v9 ((Host.log) : (⟨S4x16x2048x1, .f32⟩ : BufTy).Contents (Elt F) → (⟨S4x16x2048x1, .f32⟩ : BufTy).Contents (Elt F)),
    unary main_call1_v9 main_call1_v10 ((broadcastInDim S4x16x2048x64 ![0, 1, 2, 3] bcast_S4x16x2048x1_S4x16x2048x64_0_1_2_3) : (⟨S4x16x2048x1, .f32⟩ : BufTy).Contents (Elt F) → (⟨S4x16x2048x64, .f32⟩ : BufTy).Contents (Elt F)),
    binary main_call1_v5 main_call1_v10 main_v6 ((subf) : (⟨S4x16x2048x64, .f32⟩ : BufTy).Contents (Elt F) → (⟨S4x16x2048x64, .f32⟩ : BufTy).Contents (Elt F) → (⟨S4x16x2048x64, .f32⟩ : BufTy).Contents (Elt F)) ]

theorem ops_eq : (opsT : List (HloOp τ sig (Elt F))) = ops := by
  show ([ binary main_arg0 main_arg1 main_v0 ((fun l r => Host.dotGeneral dot_S4x16x2048x64_S4x16x2048x64_S4x16x2048x2048_3_3_2_2_01_01 none l r) : (⟨S4x16x2048x64, .f32⟩ : BufTy).Contents (Elt F) → (⟨S4x16x2048x64, .f32⟩ : BufTy).Contents (Elt F) → (⟨S4x16x2048x2048, .f32⟩ : BufTy).Contents (Elt F)),
    nullary main_cst (constant S_ .f32 0x42800000#32),
    unary main_cst main_v1 (Host.sqrt : (⟨S_, .f32⟩ : BufTy).Contents (Elt F) → (⟨S_, .f32⟩ : BufTy).Contents (Elt F)),
    unary main_v1 main_v2 (broadcastInDim S4x16x2048x2048 ![] bcast_S_S4x16x2048x2048 : (⟨S_, .f32⟩ : BufTy).Contents (Elt F) → (⟨S4x16x2048x2048, .f32⟩ : BufTy).Contents (Elt F)),
    binary main_v0 main_v2 main_v3 (Host.divf : (⟨S4x16x2048x2048, .f32⟩ : BufTy).Contents (Elt F) → (⟨S4x16x2048x2048, .f32⟩ : BufTy).Contents (Elt F) → (⟨S4x16x2048x2048, .f32⟩ : BufTy).Contents (Elt F)),
    nullary main_cst_0 (constant S_ .f32 0xCE6E6B28#32),
    TRef.unary (TRef.of (T := ⟨S4x1x2048x2048, .i1⟩) main_arg3) (TRef.of (T := ⟨S4x16x2048x2048, .i1⟩) main_call0_v0) (broadcastInDim S4x16x2048x2048 ![0, 1, 2, 3] bcast_S4x1x2048x2048_S4x16x2048x2048_0_1_2_3),
    TRef.unary (TRef.of (T := ⟨S_, .f32⟩) main_cst_0) (TRef.of (T := ⟨S4x16x2048x2048, .f32⟩) main_call0_v1) (broadcastInDim S4x16x2048x2048 ![] bcast_S_S4x16x2048x2048),
    TRef.ternary (TRef.of (T := ⟨S4x16x2048x2048, .i1⟩) main_call0_v0) (TRef.of (T := ⟨S4x16x2048x2048, .f32⟩) main_call0_v1) (TRef.of (T := ⟨S4x16x2048x2048, .f32⟩) main_v3) (TRef.of (T := ⟨S4x16x2048x2048, .f32⟩) main_v4) select,
    binary main_v4 main_arg2 main_v5 ((fun l r => Host.dotGeneral dot_S4x16x2048x2048_S4x16x2048x64_S4x16x2048x64_3_2_2_3_01_01 none l r) : (⟨S4x16x2048x2048, .f32⟩ : BufTy).Contents (Elt F) → (⟨S4x16x2048x64, .f32⟩ : BufTy).Contents (Elt F) → (⟨S4x16x2048x64, .f32⟩ : BufTy).Contents (Elt F)),
    TRef.nullary (TRef.of (T := ⟨S_, .f32⟩) main_call1_cst) (constant S_ .f32 0xFF800000#32),
    TRef.binary (TRef.of (T := ⟨S4x16x2048x64, .f32⟩) main_v5) (TRef.of (T := ⟨S_, .f32⟩) main_call1_cst) (TRef.of (T := ⟨S4x16x2048, .f32⟩) main_call1_v0) (fun x v => Host.reduce FloatOps.maximumf x v reducesTo_S4x16x2048x64_S4x16x2048_d3 h_S_),
    TRef.nullary (TRef.of (T := ⟨S_, .f32⟩) main_call1_cst_0) (constant S_ .f32 0xFF800000#32),
    TRef.unary (TRef.of (T := ⟨S_, .f32⟩) main_call1_cst_0) (TRef.of (T := ⟨S4x16x2048, .f32⟩) main_call1_v1) (broadcastInDim S4x16x2048 ![] bcast_S_S4x16x2048),
    TRef.binary (TRef.of (T := ⟨S4x16x2048, .f32⟩) main_call1_v1) (TRef.of (T := ⟨S4x16x2048, .f32⟩) main_call1_v0) (TRef.of (T := ⟨S4x16x2048, .f32⟩) main_call1_v2) maximumf,
    TRef.unary (TRef.of (T := ⟨S4x16x2048, .f32⟩) main_call1_v2) (TRef.of (T := ⟨S4x16x2048x1, .f32⟩) main_call1_v3) (broadcastInDim S4x16x2048x1 ![0, 1, 2] bcast_S4x16x2048_S4x16x2048x1_0_1_2),
    TRef.unary (TRef.of (T := ⟨S4x16x2048x1, .f32⟩) main_call1_v3) (TRef.of (T := ⟨S4x16x2048x64, .f32⟩) main_call1_v4) (broadcastInDim S4x16x2048x64 ![0, 1, 2, 3] bcast_S4x16x2048x1_S4x16x2048x64_0_1_2_3),
    TRef.binary (TRef.of (T := ⟨S4x16x2048x64, .f32⟩) main_v5) (TRef.of (T := ⟨S4x16x2048x64, .f32⟩) main_call1_v4) (TRef.of (T := ⟨S4x16x2048x64, .f32⟩) main_call1_v5) subf,
    TRef.unary (TRef.of (T := ⟨S4x16x2048x64, .f32⟩) main_call1_v5) (TRef.of (T := ⟨S4x16x2048x64, .f32⟩) main_call1_v6) Host.exp,
    TRef.nullary (TRef.of (T := ⟨S_, .f32⟩) main_call1_cst_1) (constant S_ .f32 0x00000000#32),
    TRef.binary (TRef.of (T := ⟨S4x16x2048x64, .f32⟩) main_call1_v6) (TRef.of (T := ⟨S_, .f32⟩) main_call1_cst_1) (TRef.of (T := ⟨S4x16x2048, .f32⟩) main_call1_v7) (fun x v => Host.reduceAdd x v reducesTo_S4x16x2048x64_S4x16x2048_d3 h_S_),
    TRef.unary (TRef.of (T := ⟨S4x16x2048, .f32⟩) main_call1_v7) (TRef.of (T := ⟨S4x16x2048x1, .f32⟩) main_call1_v8) (broadcastInDim S4x16x2048x1 ![0, 1, 2] bcast_S4x16x2048_S4x16x2048x1_0_1_2),
    TRef.unary (TRef.of (T := ⟨S4x16x2048x1, .f32⟩) main_call1_v8) (TRef.of (T := ⟨S4x16x2048x1, .f32⟩) main_call1_v9) Host.log,
    TRef.unary (TRef.of (T := ⟨S4x16x2048x1, .f32⟩) main_call1_v9) (TRef.of (T := ⟨S4x16x2048x64, .f32⟩) main_call1_v10) (broadcastInDim S4x16x2048x64 ![0, 1, 2, 3] bcast_S4x16x2048x1_S4x16x2048x64_0_1_2_3),
    TRef.binary (TRef.of (T := ⟨S4x16x2048x64, .f32⟩) main_call1_v5) (TRef.of (T := ⟨S4x16x2048x64, .f32⟩) main_call1_v10) (TRef.of (T := ⟨S4x16x2048x64, .f32⟩) main_v6) subf ] : List (HloOp τ sig (Elt F))) = _
  rw [op6_eq, op7_eq, op8_eq, op10_eq, op11_eq, op12_eq, op13_eq, op14_eq, op15_eq, op16_eq, op17_eq, op18_eq, op19_eq, op20_eq, op21_eq, op22_eq, op23_eq, op24_eq]

theorem main_eq (c : Dev nD) : main (F := F) c = seq ops := (mainT_eq c).trans (congrArg seq ops_eq)
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨binary_bufs_sub .., nullary_bufs_sub .., unary_bufs_sub .., unary_bufs_sub .., binary_bufs_sub .., nullary_bufs_sub .., unary_bufs_sub .., unary_bufs_sub .., ternary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

set_option maxHeartbeats 2000000 in
/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v6) = subf (subf (Host.dotGeneral dot_S4x16x2048x2048_S4x16x2048x64_S4x16x2048x64_3_2_2_3_01_01 none (select (broadcastInDim S4x16x2048x2048 ![0, 1, 2, 3] bcast_S4x1x2048x2048_S4x16x2048x2048_0_1_2_3 (m ((c.tc : Thread nD τ).loc main_arg3))) (broadcastInDim S4x16x2048x2048 ![] bcast_S_S4x16x2048x2048 (constant S_ .f32 0xCE6E6B28#32)) (Host.divf (Host.dotGeneral dot_S4x16x2048x64_S4x16x2048x64_S4x16x2048x2048_3_3_2_2_01_01 none (m ((c.tc : Thread nD τ).loc main_arg0)) (m ((c.tc : Thread nD τ).loc main_arg1))) (broadcastInDim S4x16x2048x2048 ![] bcast_S_S4x16x2048x2048 (Host.sqrt (constant S_ .f32 0x42800000#32))))) (m ((c.tc : Thread nD τ).loc main_arg2))) (broadcastInDim S4x16x2048x64 ![0, 1, 2, 3] bcast_S4x16x2048x1_S4x16x2048x64_0_1_2_3 (broadcastInDim S4x16x2048x1 ![0, 1, 2] bcast_S4x16x2048_S4x16x2048x1_0_1_2 (maximumf (broadcastInDim S4x16x2048 ![] bcast_S_S4x16x2048 (constant S_ .f32 0xFF800000#32)) (Host.reduce FloatOps.maximumf (Host.dotGeneral dot_S4x16x2048x2048_S4x16x2048x64_S4x16x2048x64_3_2_2_3_01_01 none (select (broadcastInDim S4x16x2048x2048 ![0, 1, 2, 3] bcast_S4x1x2048x2048_S4x16x2048x2048_0_1_2_3 (m ((c.tc : Thread nD τ).loc main_arg3))) (broadcastInDim S4x16x2048x2048 ![] bcast_S_S4x16x2048x2048 (constant S_ .f32 0xCE6E6B28#32)) (Host.divf (Host.dotGeneral dot_S4x16x2048x64_S4x16x2048x64_S4x16x2048x2048_3_3_2_2_01_01 none (m ((c.tc : Thread nD τ).loc main_arg0)) (m ((c.tc : Thread nD τ).loc main_arg1))) (broadcastInDim S4x16x2048x2048 ![] bcast_S_S4x16x2048x2048 (Host.sqrt (constant S_ .f32 0x42800000#32))))) (m ((c.tc : Thread nD τ).loc main_arg2))) (constant S_ .f32 0xFF800000#32) reducesTo_S4x16x2048x64_S4x16x2048_d3 h_S_))))) (broadcastInDim S4x16x2048x64 ![0, 1, 2, 3] bcast_S4x16x2048x1_S4x16x2048x64_0_1_2_3 (Host.log (broadcastInDim S4x16x2048x1 ![0, 1, 2] bcast_S4x16x2048_S4x16x2048x1_0_1_2 (Host.reduceAdd (Host.exp (subf (Host.dotGeneral dot_S4x16x2048x2048_S4x16x2048x64_S4x16x2048x64_3_2_2_3_01_01 none (select (broadcastInDim S4x16x2048x2048 ![0, 1, 2, 3] bcast_S4x1x2048x2048_S4x16x2048x2048_0_1_2_3 (m ((c.tc : Thread nD τ).loc main_arg3))) (broadcastInDim S4x16x2048x2048 ![] bcast_S_S4x16x2048x2048 (constant S_ .f32 0xCE6E6B28#32)) (Host.divf (Host.dotGeneral dot_S4x16x2048x64_S4x16x2048x64_S4x16x2048x2048_3_3_2_2_01_01 none (m ((c.tc : Thread nD τ).loc main_arg0)) (m ((c.tc : Thread nD τ).loc main_arg1))) (broadcastInDim S4x16x2048x2048 ![] bcast_S_S4x16x2048x2048 (Host.sqrt (constant S_ .f32 0x42800000#32))))) (m ((c.tc : Thread nD τ).loc main_arg2))) (broadcastInDim S4x16x2048x64 ![0, 1, 2, 3] bcast_S4x16x2048x1_S4x16x2048x64_0_1_2_3 (broadcastInDim S4x16x2048x1 ![0, 1, 2] bcast_S4x16x2048_S4x16x2048x1_0_1_2 (maximumf (broadcastInDim S4x16x2048 ![] bcast_S_S4x16x2048 (constant S_ .f32 0xFF800000#32)) (Host.reduce FloatOps.maximumf (Host.dotGeneral dot_S4x16x2048x2048_S4x16x2048x64_S4x16x2048x64_3_2_2_3_01_01 none (select (broadcastInDim S4x16x2048x2048 ![0, 1, 2, 3] bcast_S4x1x2048x2048_S4x16x2048x2048_0_1_2_3 (m ((c.tc : Thread nD τ).loc main_arg3))) (broadcastInDim S4x16x2048x2048 ![] bcast_S_S4x16x2048x2048 (constant S_ .f32 0xCE6E6B28#32)) (Host.divf (Host.dotGeneral dot_S4x16x2048x64_S4x16x2048x64_S4x16x2048x2048_3_3_2_2_01_01 none (m ((c.tc : Thread nD τ).loc main_arg0)) (m ((c.tc : Thread nD τ).loc main_arg1))) (broadcastInDim S4x16x2048x2048 ![] bcast_S_S4x16x2048x2048 (Host.sqrt (constant S_ .f32 0x42800000#32))))) (m ((c.tc : Thread nD τ).loc main_arg2))) (constant S_ .f32 0xFF800000#32) reducesTo_S4x16x2048x64_S4x16x2048_d3 h_S_)))))) (constant S_ .f32 0x00000000#32) reducesTo_S4x16x2048x64_S4x16x2048_d3 h_S_))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v6).trans (by after_results <;> rfl),
      (h c main_arg0).trans (by after_results <;> rfl),
      (h c main_arg1).trans (by after_results <;> rfl),
      (h c main_arg2).trans (by after_results <;> rfl),
      (h c main_arg3).trans (by after_results <;> rfl)⟩)
    (run_seq scopedRefs_eq scopedSems_eq defs main (fun _ => ops) main_eq (fun _ => ops_sub) m ρ)

end Cert.ReferenceIdeal.ValueP

end
-- ==== Proof.RefValue.lean ====
/-
  The reference program's result term is the result G, index by index.

  The reference contracts queries with keys over the 64 features, divides by the square root of 64 (a product with 1/8),
  replaces the score by the fill value where the mask, broadcast over the heads, is set, contracts the masked scores with
  the values over the 2048 keys, and takes the log-softmax over the last axis: the maximum of each row from minus infinity
  (and once more against minus infinity), the row minus that maximum, minus the logarithm of the sum, from zero, of the
  exponentials. Each stage is read at its coordinates; every layout operation's index function computes on coordinates.
-/
import proofs.«178710_j18391049961538_2_alg».proof.Proof.RefRead
import proofs.«178710_j18391049961538_2_alg».proof.Proof.Spec
import proofs.«178710_j18391049961538_2_alg».proof.Proof.Scale
import proofs.«178710_j18391049961538_2_alg».proof.Proof.LibRowMax

noncomputable section

open scoped BigOperators

namespace Cert.ReferenceIdeal.RefValue

open Cert.ReferenceIdeal Cert.ReferenceIdeal.Gen Cert.ReferenceIdeal.ReadP Idealize.ShloMosaic Idealize.ShloMosaic.ValueIdx Cert.Attn

variable (x0 x1 x2 : (⟨S4x16x2048x64, .f32⟩ : BufTy).Contents (Elt Ideal)) (x3 : (⟨S4x1x2048x2048, .i1⟩ : BufTy).Contents (Elt Ideal))

/-! ## The layout operations' index functions on coordinates -/

theorem hl0 (b : Fin 4) (h : Fin 16) (q k : Fin 2048) (dd : Fin 64) : lidx_main_v0 (ix4 b h q k) dd = ix4 b h q dd :=
  funext fun a => by match a with | ⟨0, _⟩ => rfl | ⟨1, _⟩ => rfl | ⟨2, _⟩ => rfl | ⟨3, _⟩ => rfl
theorem hr0 (b : Fin 4) (h : Fin 16) (q k : Fin 2048) (dd : Fin 64) : ridx_main_v0 (ix4 b h q k) dd = ix4 b h k dd :=
  funext fun a => by match a with | ⟨0, _⟩ => rfl | ⟨1, _⟩ => rfl | ⟨2, _⟩ => rfl | ⟨3, _⟩ => rfl
theorem hc0 (b : Fin 4) (h : Fin 16) (q k : Fin 2048) : idx_main_call0_v0 (ix4 b h q k) = ix4 b (0 : Fin 1) q k :=
  funext fun a => by match a with | ⟨0, _⟩ => rfl | ⟨1, _⟩ => rfl | ⟨2, _⟩ => rfl | ⟨3, _⟩ => rfl
theorem hl5 (b : Fin 4) (h : Fin 16) (q : Fin 2048) (e : Fin 64) (k : Fin 2048) : lidx_main_v5 (ix4 b h q e) k = ix4 b h q k :=
  funext fun a => by match a with | ⟨0, _⟩ => rfl | ⟨1, _⟩ => rfl | ⟨2, _⟩ => rfl | ⟨3, _⟩ => rfl
theorem hr5 (b : Fin 4) (h : Fin 16) (q : Fin 2048) (e : Fin 64) (k : Fin 2048) : ridx_main_v5 (ix4 b h q e) k = ix4 b h k e :=
  funext fun a => by match a with | ⟨0, _⟩ => rfl | ⟨1, _⟩ => rfl | ⟨2, _⟩ => rfl | ⟨3, _⟩ => rfl
theorem hi4 (b : Fin 4) (h : Fin 16) (q : Fin 2048) (d : Fin 64) : idx_main_call1_v4 (ix4 b h q d) = ix4 b h q (0 : Fin 1) :=
  funext fun a => by match a with | ⟨0, _⟩ => rfl | ⟨1, _⟩ => rfl | ⟨2, _⟩ => rfl | ⟨3, _⟩ => rfl
theorem hi3 (b : Fin 4) (h : Fin 16) (q : Fin 2048) (u : Fin 1) : idx_main_call1_v3 (ix4 b h q u) = ix3 b h q :=
  funext fun a => by match a with | ⟨0, _⟩ => rfl | ⟨1, _⟩ => rfl | ⟨2, _⟩ => rfl
theorem hi10 (b : Fin 4) (h : Fin 16) (q : Fin 2048) (d : Fin 64) : idx_main_call1_v10 (ix4 b h q d) = ix4 b h q (0 : Fin 1) :=
  funext fun a => by match a with | ⟨0, _⟩ => rfl | ⟨1, _⟩ => rfl | ⟨2, _⟩ => rfl | ⟨3, _⟩ => rfl
theorem hi8 (b : Fin 4) (h : Fin 16) (q : Fin 2048) (u : Fin 1) : idx_main_call1_v8 (ix4 b h q u) = ix3 b h q :=
  funext fun a => by match a with | ⟨0, _⟩ => rfl | ⟨1, _⟩ => rfl | ⟨2, _⟩ => rfl
theorem hi7 (b : Fin 4) (h : Fin 16) (q : Fin 2048) (k : Fin 64) : idx_main_call1_v7 (ix3 b h q) k = ix4 b h q k :=
  funext fun a => by match a with | ⟨0, _⟩ => rfl | ⟨1, _⟩ => rfl | ⟨2, _⟩ => rfl | ⟨3, _⟩ => rfl

/-! ## The stages at coordinates -/

/-- The scaled score: the contraction over the features times 1/8. -/
theorem v3_at (b : Fin 4) (h : Fin 16) (q k : Fin 2048) :
    val_main_v3 (F := Ideal) x0 x1 (ix4 b h q k)
      = (∑ dd : Fin 64, x0 (ix4 b h q dd) * x1 (ix4 b h k dd)) * ((1 / 8 : ℝ) : EReal) := by
  rw [val_main_v3_apply, val_main_v0_apply, val_main_v2_apply, val_main_v1_apply, val_main_cst_apply]
  simp only [hl0, hr0, Ideal.hostDivf_def, Ideal.hostUnary_sqrt_def, Ideal.ofBits_def]
  exact div_sqrt_64 _

/-- The masked scaled score. -/
theorem v4_at (b : Fin 4) (h : Fin 16) (q k : Fin 2048) :
    val_main_v4 (F := Ideal) x0 x1 x3 (ix4 b h q k) = score x0 x1 x3 b h q k := by
  rw [val_main_v4_apply, val_main_call0_v0_apply, val_main_call0_v1_apply, val_main_cst_0_apply, v3_at, hc0]
  rfl

/-- The masked scores contracted with the values over the keys. -/
theorem v5_at (b : Fin 4) (h : Fin 16) (q : Fin 2048) (e : Fin 64) :
    val_main_v5 (F := Ideal) x0 x1 x2 x3 (ix4 b h q e) = acc x0 x1 x2 x3 b h q e := by
  rw [val_main_v5_apply]
  unfold acc
  refine Finset.sum_congr rfl fun k _ => ?_
  rw [hl5, hr5, v4_at]

/-- The row maximum. -/
theorem max_at (b : Fin 4) (h : Fin 16) (q : Fin 2048) :
    val_main_call1_v2 (F := Ideal) x0 x1 x2 x3 (ix3 b h q) = rmax (fun e => acc x0 x1 x2 x3 b h q e) := by
  rw [val_main_call1_v2_apply, val_main_call1_v1_apply, val_main_call1_cst_0_apply]
  unfold val_main_call1_v0 rmax
  refine congrArg (fun z => max ninf z) ?_
  refine (Cert.LibRowMax.hostReduce_maximumf_single (val_main_v5 (F := Ideal) x0 x1 x2 x3) (val_main_call1_cst (F := Ideal))
    reducesTo_S4x16x2048x64_S4x16x2048_d3 (by decide) h_S_ (ix3 b h q)).trans ?_
  refine congrArg (fun f => (Finset.univ : Finset (Fin 64)).fold max ninf f) (funext fun k => ?_)
  refine Eq.trans (congrArg (val_main_v5 (F := Ideal) x0 x1 x2 x3) (funext fun a => Fin.ext ?_)) (v5_at x0 x1 x2 x3 b h q k)
  match a with
  | ⟨0, _⟩ => rfl
  | ⟨1, _⟩ => rfl
  | ⟨2, _⟩ => rfl
  | ⟨3, _⟩ => rfl

/-- The row minus its maximum. -/
theorem shifted_at (b : Fin 4) (h : Fin 16) (q : Fin 2048) (e : Fin 64) :
    val_main_call1_v5 (F := Ideal) x0 x1 x2 x3 (ix4 b h q e)
      = acc x0 x1 x2 x3 b h q e - rmax (fun e' => acc x0 x1 x2 x3 b h q e') := by
  rw [val_main_call1_v5_apply, val_main_call1_v4_apply, val_main_call1_v3_apply, hi4, hi3, max_at, v5_at]
  rfl

/-- THE REFERENCE'S RESULT at (b, h, q, d): the log-softmax of the row. -/
theorem result_at (b : Fin 4) (h : Fin 16) (q : Fin 2048) (d : Fin 64) :
    val_main_v6 (F := Ideal) x0 x1 x2 x3 (ix4 b h q d) = lsm (fun e => acc x0 x1 x2 x3 b h q e) d := by
  rw [val_main_v6_apply, shifted_at, val_main_call1_v10_apply, val_main_call1_v9_apply, val_main_call1_v8_apply, hi10, hi8,
    val_main_call1_v7_apply, val_main_call1_cst_1_apply]
  unfold lsm
  simp only [Ideal.subf_def, Ideal.hostUnary_log_def, Ideal.ofBits_def, hi7, val_main_call1_v6_apply, shifted_at,
    Ideal.hostUnary_exp_def]
  rw [ofBits_zero, zero_add]

/-- So the reference's result term is G of the four argument arrays. -/
theorem val_eq_G : val_main_v6 (F := Ideal) x0 x1 x2 x3 = G x0 x1 x2 x3 := by
  funext i
  obtain ⟨b, h, q, d, rfl⟩ : ∃ (b : Fin 4) (h : Fin 16) (q : Fin 2048) (d : Fin 64), i = ix4 b h q d :=
    ⟨i 0, i 1, i 2, i 3, eq_ix4 i⟩
  rw [result_at, G_ix4]

end Cert.ReferenceIdeal.RefValue

end
-- ==== Proof.lean ====
/-
  The proof of Cert.Claim for the masked-score attention kernel against its jnp reference.

  Both idealized programs compute, for batch b, head h, query row q and feature d, the log-softmax over the 64 features of

      acc(b, h, q, e) = sum over the 2048 keys k of  s(b, h, q, k) * V(b, h, k, e),

  where s is the fill value -1e9 where the mask is set and the contraction of the query row with the key row times 1/8
  elsewhere (Proof/Spec.lean: the function G). The reference does exactly this on the host, dividing by the square root
  of 64 (Proof/RefValue.lean). The kernel folds batch and head into 64 row blocks, multiplies the query entries by 1/8
  before the contraction, walks the keys in two tiles of 1024 accumulating in a scratch block that it zeroes at the first
  tile, and writes the log-softmax at the second (Proof/Pieces.lean, PayAt.lean, Accum.lean, Final.lean, KRun.lean). The
  two agree on the extended reals because 1/8 is a nonnegative real, which moves across every finite sum of extended
  reals, the square root of 64 is 8, and a sum over the keys may be split in two halves (Proof/Scale.lean, Bridge.lean);
  no finiteness of the inputs is used. The three frames are the generated frames and the reference's run; the idealization
  rewrote nothing, so its preservation claim is trivial.
-/
import proofs.«178710_j18391049961538_2_alg».proof.Defs
import proofs.«178710_j18391049961538_2_alg».proof.Proof.Gen.Kernel
import proofs.«178710_j18391049961538_2_alg».proof.Proof.Gen.Kernel.Frame
import proofs.«178710_j18391049961538_2_alg».proof.Proof.Gen.KernelIdeal
import proofs.«178710_j18391049961538_2_alg».proof.Proof.Gen.KernelIdeal.Frame
import proofs.«178710_j18391049961538_2_alg».proof.Proof.Gen.ReferenceIdeal
import proofs.«178710_j18391049961538_2_alg».proof.Proof.Gen.Pre_finite_inputs
import proofs.«178710_j18391049961538_2_alg».proof.Proof.KRun
import proofs.«178710_j18391049961538_2_alg».proof.Proof.RefRun
import proofs.«178710_j18391049961538_2_alg».proof.Proof.RefRead
import proofs.«178710_j18391049961538_2_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
/-- The reference's frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- At the ideal instance the kernel's result buffer ends at G of its argument arrays, and so does the reference's, of
    arguments that agree. -/
theorem algebraic : Cert.algebraic_KernelIdeal_ReferenceIdeal := by
  intro m ρ m' ρ' _ hagree
  refine ⟨fun c => Cert.Attn.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)), ?_, ?_⟩
  · exact (θ_run Cert.KernelIdeal.defs _ _).mono
      (fun _ h c => ⟨(h c).1.trans (Cert.KernelIdeal.KRun.result_eq_G m c), (h c).2⟩) (Cert.KernelIdeal.KRun.run m ρ)
  · refine (θ_run Cert.ReferenceIdeal.defs _ _).mono (fun _ h c => ⟨?_, (h c).2⟩)
      (Cert.ReferenceIdeal.ValueP.run (F := Ideal) m' ρ')
    rw [(h c).1, Cert.ReferenceIdeal.ReadP.val_main_v6_eq, Cert.ReferenceIdeal.RefValue.val_eq_G, (hagree c).1,
      (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
